-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x200 : Shape := ⟨2, ![262144, 200]⟩
abbrev S15x9 : Shape := ⟨2, ![15, 9]⟩
abbrev S15x5 : Shape := ⟨2, ![15, 5]⟩
abbrev S15x1 : Shape := ⟨2, ![15, 1]⟩
abbrev S_ : Shape := ⟨0, ![]⟩

class Facts : Prop where
  bcast_S_S262144x200 : S_.BroadcastsInDim S262144x200 (![] : Fin 0 → Fin S262144x200.rank)
  reducesTo_S262144x200_S_d0_1 : S262144x200.ReducesTo [0, 1] S_
  h_S_ : 0 < S_.numel
  bcast_S_S15x9 : S_.BroadcastsInDim S15x9 (![] : Fin 0 → Fin S15x9.rank)
  reducesTo_S15x9_S_d0_1 : S15x9.ReducesTo [0, 1] S_
  bcast_S_S15x5 : S_.BroadcastsInDim S15x5 (![] : Fin 0 → Fin S15x5.rank)
  reducesTo_S15x5_S_d0_1 : S15x5.ReducesTo [0, 1] S_
  bcast_S_S15x1 : S_.BroadcastsInDim S15x1 (![] : Fin 0 → Fin S15x1.rank)
  reducesTo_S15x1_S_d0_1 : S15x1.ReducesTo [0, 1] S_

variable [Facts]

def fn_part1 {F : FTy → Type} [FloatOps F] (main_v13 : IVec S_ 1) (main_v16 : IVec S15x1 1) : IVec S_ 1 :=
  let main_c_5 : IVec S_ 1 := constantI S_ 1 1#1
  let main_v17 : IVec S_ 1 := (fun x v => Host.reduce IntOp.andi x v reducesTo_S15x1_S_d0_1 h_S_) main_v16 main_c_5
  let main_v18 : IVec S_ 1 := andi main_v13 main_v17
  main_v18

def fn {F : FTy → Type} [FloatOps F] (main_arg0 : FVec F S262144x200 .f32) (main_arg1 : FVec F S15x9 .f32) (main_arg2 : FVec F S15x5 .f32) (main_arg3 : FVec F S15x1 .f32) : IVec S_ 1 :=
  let main_v0 : FVec F S262144x200 .f32 := Host.absf main_arg0
  let main_cst : FVec F S_ .f32 := constant S_ .f32 0x7F800000#32
  let main_v1 : FVec F S262144x200 .f32 := broadcastInDim S262144x200 ![] bcast_S_S262144x200 main_cst
  let main_v2 : IVec S262144x200 1 := cmpf .olt main_v0 main_v1
  let main_c : IVec S_ 1 := constantI S_ 1 1#1
  let main_v3 : IVec S_ 1 := (fun x v => Host.reduce IntOp.andi x v reducesTo_S262144x200_S_d0_1 h_S_) main_v2 main_c
  let main_v4 : FVec F S15x9 .f32 := Host.absf main_arg1
  let main_cst_0 : FVec F S_ .f32 := constant S_ .f32 0x7F800000#32
  let main_v5 : FVec F S15x9 .f32 := broadcastInDim S15x9 ![] bcast_S_S15x9 main_cst_0
  let main_v6 : IVec S15x9 1 := cmpf .olt main_v4 main_v5
  let main_c_1 : IVec S_ 1 := constantI S_ 1 1#1
  let main_v7 : IVec S_ 1 := (fun x v => Host.reduce IntOp.andi x v reducesTo_S15x9_S_d0_1 h_S_) main_v6 main_c_1
  let main_v8 : IVec S_ 1 := andi main_v3 main_v7
  let main_v9 : FVec F S15x5 .f32 := Host.absf main_arg2
  let main_cst_2 : FVec F S_ .f32 := constant S_ .f32 0x7F800000#32
  let main_v10 : FVec F S15x5 .f32 := broadcastInDim S15x5 ![] bcast_S_S15x5 main_cst_2
  let main_v11 : IVec S15x5 1 := cmpf .olt main_v9 main_v10
  let main_c_3 : IVec S_ 1 := constantI S_ 1 1#1
  let main_v12 : IVec S_ 1 := (fun x v => Host.reduce IntOp.andi x v reducesTo_S15x5_S_d0_1 h_S_) main_v11 main_c_3
  let main_v13 : IVec S_ 1 := andi main_v8 main_v12
  let main_v14 : FVec F S15x1 .f32 := Host.absf main_arg3
  let main_cst_4 : FVec F S_ .f32 := constant S_ .f32 0x7F800000#32
  let main_v15 : FVec F S15x1 .f32 := broadcastInDim S15x1 ![] bcast_S_S15x1 main_cst_4
  let main_v16 : IVec S15x1 1 := cmpf .olt main_v14 main_v15
  fn_part1 (F := F) main_v13 main_v16
-- ==== Kernel.lean ====
abbrev S262144x200 : Shape := ⟨2, ![262144, 200]⟩
abbrev S15x9 : Shape := ⟨2, ![15, 9]⟩
abbrev S15x5 : Shape := ⟨2, ![15, 5]⟩
abbrev S15x1 : Shape := ⟨2, ![15, 1]⟩
abbrev S81 : Shape := ⟨1, ![81]⟩
abbrev S_ : Shape := ⟨0, ![]⟩
abbrev S200x648 : Shape := ⟨2, ![200, 648]⟩
abbrev S81x1 : Shape := ⟨2, ![81, 1]⟩
abbrev S1x81 : Shape := ⟨2, ![1, 81]⟩
abbrev S1 : Shape := ⟨1, ![1]⟩
abbrev S2 : Shape := ⟨1, ![2]⟩
abbrev S81x5 : Shape := ⟨2, ![81, 5]⟩
abbrev S5x81 : Shape := ⟨2, ![5, 81]⟩
abbrev S81x9 : Shape := ⟨2, ![81, 9]⟩
abbrev S9x81 : Shape := ⟨2, ![9, 81]⟩
abbrev S262144x648 : Shape := ⟨2, ![262144, 648]⟩
abbrev S4096x200 : Shape := ⟨2, ![4096, 200]⟩
abbrev S4096x648 : Shape := ⟨2, ![4096, 648]⟩
abbrev S262144x8x3x3x3x3 : Shape := ⟨6, ![262144, 8, 3, 3, 3, 3]⟩

abbrev nBuf : Space → Nat
  | .hbm => 193
  | .vmem => 5
  | .smem => 0
  | _ => 0

abbrev hbmTy0_0 (i : Nat) : BufTy := match i % 128 with
  | 0 => ⟨S262144x200, .f32⟩
  | 1 => ⟨S15x9, .f32⟩
  | 2 => ⟨S15x5, .f32⟩
  | 3 => ⟨S15x1, .f32⟩
  | 4 => ⟨S81, .i32⟩
  | 5 => ⟨S81, .f32⟩
  | 6 => ⟨S_, .f32⟩
  | 7 => ⟨S200x648, .f32⟩
  | 8 => ⟨S_, .i32⟩
  | 9 => ⟨S81, .i32⟩
  | 10 => ⟨S81, .i1⟩
  | 11 => ⟨S_, .i32⟩
  | 12 => ⟨S81, .i32⟩
  | 13 => ⟨S81, .i32⟩
  | 14 => ⟨S81, .i32⟩
  | 15 => ⟨S81x1, .i32⟩
  | 16 => ⟨S81x1, .f32⟩
  | 17 => ⟨S81x1, .f32⟩
  | 18 => ⟨S81x1, .f32⟩
  | 19 => ⟨S1x81, .f32⟩
  | 20 => ⟨S_, .i32⟩
  | 21 => ⟨S1, .i32⟩
  | 22 => ⟨S_, .i32⟩
  | 23 => ⟨S1, .i32⟩
  | 24 => ⟨S2, .i32⟩
  | 25 => ⟨S200x648, .f32⟩
  | 26 => ⟨S_, .i32⟩
  | 27 => ⟨S1, .i32⟩
  | 28 => ⟨S_, .i32⟩
  | 29 => ⟨S1, .i32⟩
  | 30 => ⟨S2, .i32⟩
  | 31 => ⟨S200x648, .f32⟩
  | 32 => ⟨S_, .i32⟩
  | 33 => ⟨S1, .i32⟩
  | 34 => ⟨S_, .i32⟩
  | 35 => ⟨S1, .i32⟩
  | 36 => ⟨S2, .i32⟩
  | 37 => ⟨S200x648, .f32⟩
  | 38 => ⟨S_, .i32⟩
  | 39 => ⟨S1, .i32⟩
  | 40 => ⟨S_, .i32⟩
  | 41 => ⟨S1, .i32⟩
  | 42 => ⟨S2, .i32⟩
  | 43 => ⟨S200x648, .f32⟩
  | 44 => ⟨S_, .i32⟩
  | 45 => ⟨S1, .i32⟩
  | 46 => ⟨S_, .i32⟩
  | 47 => ⟨S1, .i32⟩
  | 48 => ⟨S2, .i32⟩
  | 49 => ⟨S200x648, .f32⟩
  | 50 => ⟨S_, .i32⟩
  | 51 => ⟨S1, .i32⟩
  | 52 => ⟨S_, .i32⟩
  | 53 => ⟨S1, .i32⟩
  | 54 => ⟨S2, .i32⟩
  | 55 => ⟨S200x648, .f32⟩
  | 56 => ⟨S_, .i32⟩
  | 57 => ⟨S1, .i32⟩
  | 58 => ⟨S_, .i32⟩
  | 59 => ⟨S1, .i32⟩
  | 60 => ⟨S2, .i32⟩
  | 61 => ⟨S200x648, .f32⟩
  | 62 => ⟨S_, .i32⟩
  | 63 => ⟨S1, .i32⟩
  | 64 => ⟨S_, .i32⟩
  | 65 => ⟨S1, .i32⟩
  | 66 => ⟨S2, .i32⟩
  | 67 => ⟨S200x648, .f32⟩
  | 68 => ⟨S_, .i32⟩
  | 69 => ⟨S81, .i32⟩
  | 70 => ⟨S81, .i1⟩
  | 71 => ⟨S_, .i32⟩
  | 72 => ⟨S81, .i32⟩
  | 73 => ⟨S81, .i32⟩
  | 74 => ⟨S81, .i32⟩
  | 75 => ⟨S81x1, .i32⟩
  | 76 => ⟨S81x5, .f32⟩
  | 77 => ⟨S81x1, .f32⟩
  | 78 => ⟨S81x5, .f32⟩
  | 79 => ⟨S81x5, .f32⟩
  | 80 => ⟨S5x81, .f32⟩
  | 81 => ⟨S_, .i32⟩
  | 82 => ⟨S1, .i32⟩
  | 83 => ⟨S_, .i32⟩
  | 84 => ⟨S1, .i32⟩
  | 85 => ⟨S2, .i32⟩
  | 86 => ⟨S200x648, .f32⟩
  | 87 => ⟨S_, .i32⟩
  | 88 => ⟨S1, .i32⟩
  | 89 => ⟨S_, .i32⟩
  | 90 => ⟨S1, .i32⟩
  | 91 => ⟨S2, .i32⟩
  | 92 => ⟨S200x648, .f32⟩
  | 93 => ⟨S_, .i32⟩
  | 94 => ⟨S1, .i32⟩
  | 95 => ⟨S_, .i32⟩
  | 96 => ⟨S1, .i32⟩
  | 97 => ⟨S2, .i32⟩
  | 98 => ⟨S200x648, .f32⟩
  | 99 => ⟨S_, .i32⟩
  | 100 => ⟨S1, .i32⟩
  | 101 => ⟨S_, .i32⟩
  | 102 => ⟨S1, .i32⟩
  | 103 => ⟨S2, .i32⟩
  | 104 => ⟨S200x648, .f32⟩
  | 105 => ⟨S_, .i32⟩
  | 106 => ⟨S1, .i32⟩
  | 107 => ⟨S_, .i32⟩
  | 108 => ⟨S1, .i32⟩
  | 109 => ⟨S2, .i32⟩
  | 110 => ⟨S200x648, .f32⟩
  | 111 => ⟨S_, .i32⟩
  | 112 => ⟨S1, .i32⟩
  | 113 => ⟨S_, .i32⟩
  | 114 => ⟨S1, .i32⟩
  | 115 => ⟨S2, .i32⟩
  | 116 => ⟨S200x648, .f32⟩
  | 117 => ⟨S_, .i32⟩
  | 118 => ⟨S1, .i32⟩
  | 119 => ⟨S_, .i32⟩
  | 120 => ⟨S1, .i32⟩
  | 121 => ⟨S2, .i32⟩
  | 122 => ⟨S200x648, .f32⟩
  | 123 => ⟨S_, .i32⟩
  | 124 => ⟨S1, .i32⟩
  | 125 => ⟨S_, .i32⟩
  | 126 => ⟨S1, .i32⟩
  | 127 => ⟨S2, .i32⟩
  | _ => ⟨S262144x200, .f32⟩

abbrev hbmTy0_1 (i : Nat) : BufTy := match i % 128 with
  | 0 => ⟨S200x648, .f32⟩
  | 1 => ⟨S_, .i32⟩
  | 2 => ⟨S81, .i32⟩
  | 3 => ⟨S81, .i1⟩
  | 4 => ⟨S_, .i32⟩
  | 5 => ⟨S81, .i32⟩
  | 6 => ⟨S81, .i32⟩
  | 7 => ⟨S81, .i32⟩
  | 8 => ⟨S81x1, .i32⟩
  | 9 => ⟨S81x9, .f32⟩
  | 10 => ⟨S81x1, .f32⟩
  | 11 => ⟨S81x9, .f32⟩
  | 12 => ⟨S81x9, .f32⟩
  | 13 => ⟨S9x81, .f32⟩
  | 14 => ⟨S_, .i32⟩
  | 15 => ⟨S1, .i32⟩
  | 16 => ⟨S_, .i32⟩
  | 17 => ⟨S1, .i32⟩
  | 18 => ⟨S2, .i32⟩
  | 19 => ⟨S200x648, .f32⟩
  | 20 => ⟨S_, .i32⟩
  | 21 => ⟨S1, .i32⟩
  | 22 => ⟨S_, .i32⟩
  | 23 => ⟨S1, .i32⟩
  | 24 => ⟨S2, .i32⟩
  | 25 => ⟨S200x648, .f32⟩
  | 26 => ⟨S_, .i32⟩
  | 27 => ⟨S1, .i32⟩
  | 28 => ⟨S_, .i32⟩
  | 29 => ⟨S1, .i32⟩
  | 30 => ⟨S2, .i32⟩
  | 31 => ⟨S200x648, .f32⟩
  | 32 => ⟨S_, .i32⟩
  | 33 => ⟨S1, .i32⟩
  | 34 => ⟨S_, .i32⟩
  | 35 => ⟨S1, .i32⟩
  | 36 => ⟨S2, .i32⟩
  | 37 => ⟨S200x648, .f32⟩
  | 38 => ⟨S_, .i32⟩
  | 39 => ⟨S1, .i32⟩
  | 40 => ⟨S_, .i32⟩
  | 41 => ⟨S1, .i32⟩
  | 42 => ⟨S2, .i32⟩
  | 43 => ⟨S200x648, .f32⟩
  | 44 => ⟨S_, .i32⟩
  | 45 => ⟨S1, .i32⟩
  | 46 => ⟨S_, .i32⟩
  | 47 => ⟨S1, .i32⟩
  | 48 => ⟨S2, .i32⟩
  | 49 => ⟨S200x648, .f32⟩
  | 50 => ⟨S_, .i32⟩
  | 51 => ⟨S1, .i32⟩
  | 52 => ⟨S_, .i32⟩
  | 53 => ⟨S1, .i32⟩
  | 54 => ⟨S2, .i32⟩
  | 55 => ⟨S200x648, .f32⟩
  | 56 => ⟨S_, .i32⟩
  | 57 => ⟨S1, .i32⟩
  | 58 => ⟨S_, .i32⟩
  | 59 => ⟨S1, .i32⟩
  | 60 => ⟨S2, .i32⟩
  | 61 => ⟨S200x648, .f32⟩
  | 62 => ⟨S200x648, .bf16⟩
  | 63 => ⟨S262144x648, .f32⟩
  | 64 => ⟨S262144x8x3x3x3x3, .f32⟩
  | _ => ⟨S262144x200, .f32⟩

abbrev hbmTy (i : Nat) : BufTy := match i / 128 with
  | 0 => hbmTy0_0 i
  | 1 => hbmTy0_1 i
  | _ => ⟨S262144x200, .f32⟩

abbrev bufTy : (tb : Table) → Fin (tcTables nBuf tb) → BufTy
  | .hbm, ⟨i, _⟩ => hbmTy i
  | .local _ .vmem, ⟨0, _⟩ => ⟨S4096x200, .f32⟩
  | .local _ .vmem, ⟨1, _⟩ => ⟨S4096x200, .f32⟩
  | .local _ .vmem, ⟨2, _⟩ => ⟨S200x648, .bf16⟩
  | .local _ .vmem, ⟨3, _⟩ => ⟨S4096x648, .f32⟩
  | .local _ .vmem, ⟨4, _⟩ => ⟨S4096x648, .f32⟩
  | _, _ => ⟨S262144x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_c_8 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_9 : Ref sig .tc := ⟨.hbm, 38, rfl⟩
abbrev main_v23 : Ref sig .tc := ⟨.hbm, 39, rfl⟩
abbrev main_c_10 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_11 : Ref sig .tc := ⟨.hbm, 44, rfl⟩
abbrev main_v27 : Ref sig .tc := ⟨.hbm, 45, rfl⟩
abbrev main_c_12 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_13 : Ref sig .tc := ⟨.hbm, 50, rfl⟩
abbrev main_v31 : Ref sig .tc := ⟨.hbm, 51, rfl⟩
abbrev main_c_14 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_15 : Ref sig .tc := ⟨.hbm, 56, rfl⟩
abbrev main_v35 : Ref sig .tc := ⟨.hbm, 57, rfl⟩
abbrev main_c_16 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_17 : Ref sig .tc := ⟨.hbm, 62, rfl⟩
abbrev main_v39 : Ref sig .tc := ⟨.hbm, 63, rfl⟩
abbrev main_c_18 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_19 : Ref sig .tc := ⟨.hbm, 68, rfl⟩
abbrev main_v43 : Ref sig .tc := ⟨.hbm, 69, rfl⟩
abbrev main_v44 : Ref sig .tc := ⟨.hbm, 70, rfl⟩
abbrev main_c_20 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_21 : Ref sig .tc := ⟨.hbm, 81, rfl⟩
abbrev main_v54 : Ref sig .tc := ⟨.hbm, 82, rfl⟩
abbrev main_c_22 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_23 : Ref sig .tc := ⟨.hbm, 87, rfl⟩
abbrev main_v58 : Ref sig .tc := ⟨.hbm, 88, rfl⟩
abbrev main_c_24 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_25 : Ref sig .tc := ⟨.hbm, 93, rfl⟩
abbrev main_v62 : Ref sig .tc := ⟨.hbm, 94, rfl⟩
abbrev main_c_26 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_27 : Ref sig .tc := ⟨.hbm, 99, rfl⟩
abbrev main_v66 : Ref sig .tc := ⟨.hbm, 100, rfl⟩
abbrev main_c_28 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_29 : Ref sig .tc := ⟨.hbm, 105, rfl⟩
abbrev main_v70 : Ref sig .tc := ⟨.hbm, 106, rfl⟩
abbrev main_c_30 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_31 : Ref sig .tc := ⟨.hbm, 111, rfl⟩
abbrev main_v74 : Ref sig .tc := ⟨.hbm, 112, rfl⟩
abbrev main_c_32 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_33 : Ref sig .tc := ⟨.hbm, 117, rfl⟩
abbrev main_v78 : Ref sig .tc := ⟨.hbm, 118, rfl⟩
abbrev main_c_34 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_35 : Ref sig .tc := ⟨.hbm, 123, rfl⟩
abbrev main_v82 : Ref sig .tc := ⟨.hbm, 124, rfl⟩
abbrev main_c_36 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_37 : Ref sig .tc := ⟨.hbm, 129, rfl⟩
abbrev main_v86 : Ref sig .tc := ⟨.hbm, 130, rfl⟩
abbrev main_v87 : Ref sig .tc := ⟨.hbm, 131, rfl⟩
abbrev main_c_38 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_39 : Ref sig .tc := ⟨.hbm, 142, rfl⟩
abbrev main_v97 : Ref sig .tc := ⟨.hbm, 143, rfl⟩
abbrev main_c_40 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_c_41 : Ref sig .tc := ⟨.hbm, 148, rfl⟩
abbrev main_v101 : Ref sig .tc := ⟨.hbm, 149, rfl⟩
abbrev main_c_42 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_43 : Ref sig .tc := ⟨.hbm, 154, rfl⟩
abbrev main_v105 : Ref sig .tc := ⟨.hbm, 155, rfl⟩
abbrev main_c_44 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_45 : Ref sig .tc := ⟨.hbm, 160, rfl⟩
abbrev main_v109 : Ref sig .tc := ⟨.hbm, 161, rfl⟩
abbrev main_c_46 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_c_47 : Ref sig .tc := ⟨.hbm, 166, rfl⟩
abbrev main_v113 : Ref sig .tc := ⟨.hbm, 167, rfl⟩
abbrev main_c_48 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_c_49 : Ref sig .tc := ⟨.hbm, 172, rfl⟩
abbrev main_v117 : Ref sig .tc := ⟨.hbm, 173, rfl⟩
abbrev main_c_50 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_c_51 : Ref sig .tc := ⟨.hbm, 178, rfl⟩
abbrev main_v121 : Ref sig .tc := ⟨.hbm, 179, rfl⟩
abbrev main_c_52 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_c_53 : Ref sig .tc := ⟨.hbm, 184, rfl⟩
abbrev main_v125 : Ref sig .tc := ⟨.hbm, 185, rfl⟩
abbrev main_c_54 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x648 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S200x648 : S_.BroadcastsInDim S200x648 (![] : Fin 0 → Fin S200x648.rank)
  bcast_S_S81 : S_.BroadcastsInDim S81 (![] : Fin 0 → Fin S81.rank)
  bcast_S81_S81x1_0 : S81.BroadcastsInDim S81x1 (![0] : Fin 1 → Fin S81x1.rank)
  transposes_S81x1_S1x81_1_0 : S81x1.Transposes [1, 0] S1x81
  bcast_S_S1 : S_.BroadcastsInDim S1 (![] : Fin 0 → Fin S1.rank)
  concatenates_S1_S1_S2_d0 : Shape.Concatenates [S1, S1] S2 0
  bcast_S81x1_S81x5_0_1 : S81x1.BroadcastsInDim S81x5 (![0, 1] : Fin 2 → Fin S81x5.rank)
  transposes_S81x5_S5x81_1_0 : S81x5.Transposes [1, 0] S5x81
  bcast_S81x1_S81x9_0_1 : S81x1.BroadcastsInDim S81x9 (![0, 1] : Fin 2 → Fin S81x9.rank)
  transposes_S81x9_S9x81_1_0 : S81x9.Transposes [1, 0] S9x81
  bitsLt_bf16_f32 : FTy.bits .bf16 < FTy.bits .f32
  inb_S4096x200_S4096x200_0_0 : ∀ a, (![0, 0] : Fin 2 → Nat) a + S4096x200.size a ≤ S4096x200.size a
  h_S4096x200 : 0 < S4096x200.numel
  inb_S200x648_S200x648_0_0 : ∀ a, (![0, 0] : Fin 2 → Nat) a + S200x648.size a ≤ S200x648.size a
  h_S200x648 : 0 < S200x648.numel
  shapeCasts_S200x648_S200x648 : S200x648.ShapeCasts S200x648
  inb_S4096x648_S4096x648_0_0 : ∀ a, (![0, 0] : Fin 2 → Nat) a + S4096x648.size a ≤ S4096x648.size a
  h_S4096x648 : 0 < S4096x648.numel
  shapeCasts_S262144x648_S262144x8x3x3x3x3 : S262144x648.ShapeCasts S262144x8x3x3x3x3
  gather_S15x1_S81x1_S81x1_1_0_n_n_0_1_11_wf : GatherDims.WF S15x1 S81x1 S81x1 [1] [0] [] [0] [] 1 ![1, 1]
  scatter_S200x648_S2_S1x81_01_n_01_0_wf : ScatterDims.WF S200x648 S2 S1x81 [0, 1] [] [0, 1] 0
  gather_S15x5_S81x1_S81x5_1_0_n_n_0_1_15_wf : GatherDims.WF S15x5 S81x1 S81x5 [1] [0] [] [0] [] 1 ![1, 5]
  scatter_S200x648_S2_S5x81_01_n_01_0_wf : ScatterDims.WF S200x648 S2 S5x81 [0, 1] [] [0, 1] 0
  gather_S15x9_S81x1_S81x9_1_0_n_n_0_1_19_wf : GatherDims.WF S15x9 S81x1 S81x9 [1] [0] [] [0] [] 1 ![1, 9]
  scatter_S200x648_S2_S9x81_01_n_01_0_wf : ScatterDims.WF S200x648 S2 S9x81 [0, 1] [] [0, 1] 0
  dot_S4096x200_S200x648_S4096x648_1_0_0_1_n_n_wf : DotDims.WF S4096x200 S200x648 S4096x648 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x200.size a ≤ S262144x200.size a
  hwx0_0 : ∀ i : grid0.Coords, EltTy.bits .f32 = 32 ∨ (Rect.block (s := S262144x200) S4096x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x648.size a ≤ S200x648.size a
  hwx0_1 : ∀ i : grid0.Coords, EltTy.bits .bf16 = 32 ∨ (Rect.block (s := S200x648) S200x648.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x648.size a ≤ S262144x648.size a
  hwx0_2 : ∀ i : grid0.Coords, EltTy.bits .f32 = 32 ∨ (Rect.block (s := S262144x648) S4096x648.size (cc0_transform_2 i) (hinb0_2 i)).WholeWords (EltTy.packing .f32)

variable [Facts₀]

def gather_S15x1_S81x1_S81x1_1_0_n_n_0_1_11 : GatherDims S15x1 S81x1 S81x1 where
  offsetDims := [1]
  collapsedSliceDims := [0]
  operandBatchingDims := []
  startIndicesBatchingDims := []
  startIndexMap := [0]
  indexVectorDim := 1
  sliceSizes := ![1, 1]
  wf := gather_S15x1_S81x1_S81x1_1_0_n_n_0_1_11_wf
def scatter_S200x648_S2_S1x81_01_n_01_0 : ScatterDims S200x648 S2 S1x81 where
  updateWindowDims := [0, 1]
  insertedWindowDims := []
  scatterDimsToOperandDims := [0, 1]
  indexVectorDim := 0
  wf := scatter_S200x648_S2_S1x81_01_n_01_0_wf
def gather_S15x5_S81x1_S81x5_1_0_n_n_0_1_15 : GatherDims S15x5 S81x1 S81x5 where
  offsetDims := [1]
  collapsedSliceDims := [0]
  operandBatchingDims := []
  startIndicesBatchingDims := []
  startIndexMap := [0]
  indexVectorDim := 1
  sliceSizes := ![1, 5]
  wf := gather_S15x5_S81x1_S81x5_1_0_n_n_0_1_15_wf
def scatter_S200x648_S2_S5x81_01_n_01_0 : ScatterDims S200x648 S2 S5x81 where
  updateWindowDims := [0, 1]
  insertedWindowDims := []
  scatterDimsToOperandDims := [0, 1]
  indexVectorDim := 0
  wf := scatter_S200x648_S2_S5x81_01_n_01_0_wf
def gather_S15x9_S81x1_S81x9_1_0_n_n_0_1_19 : GatherDims S15x9 S81x1 S81x9 where
  offsetDims := [1]
  collapsedSliceDims := [0]
  operandBatchingDims := []
  startIndicesBatchingDims := []
  startIndexMap := [0]
  indexVectorDim := 1
  sliceSizes := ![1, 9]
  wf := gather_S15x9_S81x1_S81x9_1_0_n_n_0_1_19_wf
def scatter_S200x648_S2_S9x81_01_n_01_0 : ScatterDims S200x648 S2 S9x81 where
  updateWindowDims := [0, 1]
  insertedWindowDims := []
  scatterDimsToOperandDims := [0, 1]
  indexVectorDim := 0
  wf := scatter_S200x648_S2_S9x81_01_n_01_0_wf
def dot_S4096x200_S200x648_S4096x648_1_0_0_1_n_n : DotDims S4096x200 S200x648 S4096x648 where
  lhsContracting := [1]
  rhsContracting := [0]
  lhsNonContracting := [0]
  rhsNonContracting := [1]
  lhsBatch := []
  rhsBatch := []
  wf := dot_S4096x200_S200x648_S4096x648_1_0_0_1_n_n_wf

abbrev win0_0 : Pipeline.Window sig grid0 :=
  Pipeline.Window.ofSpec (Memref.whole main_arg0) S4096x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v129) S200x648.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v130) S4096x648.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x200 : Shape := ⟨2, ![262144, 200]⟩
abbrev S15x9 : Shape := ⟨2, ![15, 9]⟩
abbrev S15x5 : Shape := ⟨2, ![15, 5]⟩
abbrev S15x1 : Shape := ⟨2, ![15, 1]⟩
abbrev S81 : Shape := ⟨1, ![81]⟩
abbrev S262144x8 : Shape := ⟨2, ![262144, 8]⟩
abbrev S262144x8x1 : Shape := ⟨3, ![262144, 8, 1]⟩
abbrev S262144x24 : Shape := ⟨2, ![262144, 24]⟩
abbrev S262144x8x3 : Shape := ⟨3, ![262144, 8, 3]⟩
abbrev S262144x40 : Shape := ⟨2, ![262144, 40]⟩
abbrev S262144x8x5 : Shape := ⟨3, ![262144, 8, 5]⟩
abbrev S262144x56 : Shape := ⟨2, ![262144, 56]⟩
abbrev S262144x8x7 : Shape := ⟨3, ![262144, 8, 7]⟩
abbrev S262144x72 : Shape := ⟨2, ![262144, 72]⟩
abbrev S262144x8x9 : Shape := ⟨3, ![262144, 8, 9]⟩
abbrev S262144x8x15 : Shape := ⟨3, ![262144, 8, 15]⟩
abbrev S_ : Shape := ⟨0, ![]⟩
abbrev S81x1 : Shape := ⟨2, ![81, 1]⟩
abbrev S262144x8x81 : Shape := ⟨3, ![262144, 8, 81]⟩
abbrev S1x1x81 : Shape := ⟨3, ![1, 1, 81]⟩
abbrev S262144x8x3x3x3x3 : Shape := ⟨6, ![262144, 8, 3, 3, 3, 3]⟩

abbrev nBuf : Space → Nat
  | .hbm => 37
  | .vmem => 0
  | .smem => 0
  | _ => 0

abbrev bufTy : (tb : Table) → Fin (tcTables nBuf tb) → BufTy
  | .hbm, ⟨0, _⟩ => ⟨S262144x200, .f32⟩
  | .hbm, ⟨1, _⟩ => ⟨S15x9, .f32⟩
  | .hbm, ⟨2, _⟩ => ⟨S15x5, .f32⟩
  | .hbm, ⟨3, _⟩ => ⟨S15x1, .f32⟩
  | .hbm, ⟨4, _⟩ => ⟨S81, .i32⟩
  | .hbm, ⟨5, _⟩ => ⟨S81, .f32⟩
  | .hbm, ⟨6, _⟩ => ⟨S262144x8, .f32⟩
  | .hbm, ⟨7, _⟩ => ⟨S262144x8x1, .f32⟩
  | .hbm, ⟨8, _⟩ => ⟨S262144x24, .f32⟩
  | .hbm, ⟨9, _⟩ => ⟨S262144x8x3, .f32⟩
  | .hbm, ⟨10, _⟩ => ⟨S262144x40, .f32⟩
  | .hbm, ⟨11, _⟩ => ⟨S262144x8x5, .f32⟩
  | .hbm, ⟨12, _⟩ => ⟨S262144x56, .f32⟩
  | .hbm, ⟨13, _⟩ => ⟨S262144x8x7, .f32⟩
  | .hbm, ⟨14, _⟩ => ⟨S262144x72, .f32⟩
  | .hbm, ⟨15, _⟩ => ⟨S262144x8x9, .f32⟩
  | .hbm, ⟨16, _⟩ => ⟨S262144x8x15, .f32⟩
  | .hbm, ⟨17, _⟩ => ⟨S_, .f32⟩
  | .hbm, ⟨18, _⟩ => ⟨S262144x8x15, .f32⟩
  | .hbm, ⟨19, _⟩ => ⟨S262144x8x15, .f32⟩
  | .hbm, ⟨20, _⟩ => ⟨S262144x8x15, .f32⟩
  | .hbm, ⟨21, _⟩ => ⟨S262144x8x15, .f32⟩
  | .hbm, ⟨22, _⟩ => ⟨S262144x8x15, .f32⟩
  | .hbm, ⟨23, _⟩ => ⟨S262144x8x15, .f32⟩
  | .hbm, ⟨24, _⟩ => ⟨S_, .i32⟩
  | .hbm, ⟨25, _⟩ => ⟨S81, .i32⟩
  | .hbm, ⟨26, _⟩ => ⟨S81, .i1⟩
  | .hbm, ⟨27, _⟩ => ⟨S_, .i32⟩
  | .hbm, ⟨28, _⟩ => ⟨S81, .i32⟩
  | .hbm, ⟨29, _⟩ => ⟨S81, .i32⟩
  | .hbm, ⟨30, _⟩ => ⟨S81, .i32⟩
  | .hbm, ⟨31, _⟩ => ⟨S81x1, .i32⟩
  | .hbm, ⟨32, _⟩ => ⟨S262144x8x81, .f32⟩
  | .hbm, ⟨33, _⟩ => ⟨S1x1x81, .f32⟩
  | .hbm, ⟨34, _⟩ => ⟨S262144x8x81, .f32⟩
  | .hbm, ⟨35, _⟩ => ⟨S262144x8x81, .f32⟩
  | .hbm, ⟨36, _⟩ => ⟨S262144x8x3x3x3x3, .f32⟩
  | _, _ => ⟨S262144x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  slices_S262144x200_S262144x8_0_0 : S262144x200.Slices ![0, 0] S262144x8
  shapeCasts_S262144x8_S262144x8x1 : S262144x8.ShapeCasts S262144x8x1
  slices_S262144x200_S262144x24_0_8 : S262144x200.Slices ![0, 8] S262144x24
  shapeCasts_S262144x24_S262144x8x3 : S262144x24.ShapeCasts S262144x8x3
  slices_S262144x200_S262144x40_0_32 : S262144x200.Slices ![0, 32] S262144x40
  shapeCasts_S262144x40_S262144x8x5 : S262144x40.ShapeCasts S262144x8x5
  slices_S262144x200_S262144x56_0_72 : S262144x200.Slices ![0, 72] S262144x56
  shapeCasts_S262144x56_S262144x8x7 : S262144x56.ShapeCasts S262144x8x7
  slices_S262144x200_S262144x72_0_128 : S262144x200.Slices ![0, 128] S262144x72
  shapeCasts_S262144x72_S262144x8x9 : S262144x72.ShapeCasts S262144x8x9
  bcast_S_S262144x8x15 : S_.BroadcastsInDim S262144x8x15 (![] : Fin 0 → Fin S262144x8x15.rank)
  bcast_S_S81 : S_.BroadcastsInDim S81 (![] : Fin 0 → Fin S81.rank)
  bcast_S81_S81x1_0 : S81.BroadcastsInDim S81x1 (![0] : Fin 1 → Fin S81x1.rank)
  bcast_S81_S1x1x81_2 : S81.BroadcastsInDim S1x1x81 (![2] : Fin 1 → Fin S1x1x81.rank)
  bcast_S1x1x81_S262144x8x81_0_1_2 : S1x1x81.BroadcastsInDim S262144x8x81 (![0, 1, 2] : Fin 3 → Fin S262144x8x81.rank)
  shapeCasts_S262144x8x81_S262144x8x3x3x3x3 : S262144x8x81.ShapeCasts S262144x8x3x3x3x3
  dot_S262144x8x9_S15x9_S262144x8x15_2_1_01_0_n_n_wf : DotDims.WF S262144x8x9 S15x9 S262144x8x15 [2] [1] [0, 1] [0] [] []
  dot_S262144x8x5_S15x5_S262144x8x15_2_1_01_0_n_n_wf : DotDims.WF S262144x8x5 S15x5 S262144x8x15 [2] [1] [0, 1] [0] [] []
  dot_S262144x8x1_S15x1_S262144x8x15_2_1_01_0_n_n_wf : DotDims.WF S262144x8x1 S15x1 S262144x8x15 [2] [1] [0, 1] [0] [] []
  gather_S262144x8x15_S81x1_S262144x8x81_01_2_n_n_2_1_26214481_wf : GatherDims.WF S262144x8x15 S81x1 S262144x8x81 [0, 1] [2] [] [2] [] 1 ![262144, 8, 1]

variable [Facts₀]

def dot_S262144x8x9_S15x9_S262144x8x15_2_1_01_0_n_n : DotDims S262144x8x9 S15x9 S262144x8x15 where
  lhsContracting := [2]
  rhsContracting := [1]
  lhsNonContracting := [0, 1]
  rhsNonContracting := [0]
  lhsBatch := []
  rhsBatch := []
  wf := dot_S262144x8x9_S15x9_S262144x8x15_2_1_01_0_n_n_wf
def dot_S262144x8x5_S15x5_S262144x8x15_2_1_01_0_n_n : DotDims S262144x8x5 S15x5 S262144x8x15 where
  lhsContracting := [2]
  rhsContracting := [1]
  lhsNonContracting := [0, 1]
  rhsNonContracting := [0]
  lhsBatch := []
  rhsBatch := []
  wf := dot_S262144x8x5_S15x5_S262144x8x15_2_1_01_0_n_n_wf
def dot_S262144x8x1_S15x1_S262144x8x15_2_1_01_0_n_n : DotDims S262144x8x1 S15x1 S262144x8x15 where
  lhsContracting := [2]
  rhsContracting := [1]
  lhsNonContracting := [0, 1]
  rhsNonContracting := [0]
  lhsBatch := []
  rhsBatch := []
  wf := dot_S262144x8x1_S15x1_S262144x8x15_2_1_01_0_n_n_wf
def gather_S262144x8x15_S81x1_S262144x8x81_01_2_n_n_2_1_26214481 : GatherDims S262144x8x15 S81x1 S262144x8x81 where
  offsetDims := [0, 1]
  collapsedSliceDims := [2]
  operandBatchingDims := []
  startIndicesBatchingDims := []
  startIndexMap := [2]
  indexVectorDim := 1
  sliceSizes := ![262144, 8, 1]
  wf := gather_S262144x8x15_S81x1_S262144x8x81_01_2_n_n_2_1_26214481_wf

class Facts : Prop extends Facts₀ where

variable [Facts]
-- ==== Proof.LibRows.lean ====
/-
  Rows of a matrix reduced along their length, and the matrix product, read one entry at a time on the extended
  reals.

  * Summing, or taking the maximum, along the rows of an `a × s` matrix leaves a length-`a` vector whose entry `r`
    is the sum (the maximum, folded from the starting value) of row `r`.
  * The product of an `m × k` matrix with a `k × n` matrix, accumulated into zero, has at `(p, q)` the sum over
    `c` of `l (p, c) · r (c, q)`: a contraction of the left operand's second axis with the right operand's first.
-/
import Idealize.ShloMosaic.Lib.ValueIdx
import Idealize.ShloMosaic.Lib.Pipeline.Value
import Idealize.ShloMosaic.PureOps.Ideal.Laws

namespace Cert.LibRows

open Idealize.ShloMosaic Idealize.ShloMosaic.ValueIdx

/-- The index a row reduction reads: the kept row coordinate, then the position along the row. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The sum along the rows, at `r`: the sum of row `r`. -/
theorem sum_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.add.neutral φ hφ)
    (r : Fin A) :
    multiReduction .add [1] ⟨1, ![A]⟩ x acc h hφ hacc (ix1 r) = ∑ k : Fin S, x (ix2 r k) :=
  (Ideal.multiReduction_add_single x acc h hφ hacc (ix1 r)).trans
    (Finset.sum_congr rfl fun k _ => congrArg x (lift_last2 h r k))

/-- The maximum along the rows, at `r`: the maximum of row `r`, folded from the starting value. -/
theorem max_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.maximumf.neutral φ hφ)
    (r : Fin A) :
    multiReduction .maximumf [1] ⟨1, ![A]⟩ x acc h hφ hacc (ix1 r)
      = (Finset.univ : Finset (Fin S)).fold max (Ideal.ofBits φ acc) (fun k => x (ix2 r k)) :=
  (Ideal.multiReduction_maximumf_single x acc h hφ hacc (ix1 r)).trans
    (congrArg ((Finset.univ : Finset (Fin S)).fold max (Ideal.ofBits φ acc)) (funext fun k => congrArg x (lift_last2 h r k)))

/-- The matrix product into a zero accumulator, at `(p, q)`: the sum over `c` of `l (p, c) · r (c, q)`. The four
    hypotheses say which coordinate of the output index or of the contraction index each operand coordinate is. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) := by
  refine (Ideal.matmul_constant_zero_apply D none l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibRows
-- ==== Proof.KernelPayload.lean ====
/-
  The kernel's body at one grid point: a 4096×200 block of x against the whole 200×648 matrix, accumulated from
  zero. Entry (p, q) of what it stores is Σ_k block(p, k) · matrix(k, q). Rounding the block to a narrower float
  format, and recasting the matrix to the shape it already has, change nothing on the extended reals.
-/
import proofs.«176551_j26628797235368_2_alg».proof.Proof.Gen.KernelIdeal.Skeleton
import proofs.«176551_j26628797235368_2_alg».proof.Proof.LibRows
import Idealize.ShloMosaic.Lib.Pipeline.Value

noncomputable section

namespace Cert.KernelIdeal.BodyValue

open Cert.KernelIdeal Cert.KernelIdeal.Gen Idealize.ShloMosaic Idealize.ShloMosaic.ValueIdx

/-- The product's dimension numbers: the block's second axis against the matrix's first. -/
abbrev D := dot_S4096x200_S200x648_S4096x648_1_0_0_1_n_n

theorem contr_rank : D.contr.rank = 1 := rfl
theorem contr_size : D.contr.size ⟨0, by rw [contr_rank]; exact Nat.one_pos⟩ = 200 := rfl

/-- The block is read at the output's row, -/
theorem lhs_0 (i : S4096x648.Idx) (q : D.contr.Idx) : (D.lhsIdx i q 0).val = (i 0).val := by
  simp [DotDims.lhsIdx, D, dot_S4096x200_S200x648_S4096x648_1_0_0_1_n_n]; rfl
/-- and at the contracted position; -/
theorem lhs_1 (i : S4096x648.Idx) (q : D.contr.Idx) :
    (D.lhsIdx i q 1).val = (q ⟨0, by rw [contr_rank]; exact Nat.one_pos⟩).val :=
  D.lhsIdx_val_of_single (cl := 1) rfl i q
/-- the matrix at the contracted position, -/
theorem rhs_0 (i : S4096x648.Idx) (q : D.contr.Idx) :
    (D.rhsIdx i q 0).val = (q ⟨0, by rw [contr_rank]; exact Nat.one_pos⟩).val :=
  D.rhsIdx_val_of_single (cr := 0) rfl i q
/-- and at the output's column. -/
theorem rhs_1 (i : S4096x648.Idx) (q : D.contr.Idx) : (D.rhsIdx i q 1).val = (i 1).val := by
  simp [DotDims.rhsIdx, D, dot_S4096x200_S200x648_S4096x648_1_0_0_1_n_n]; rfl

/-- WHAT THE BODY STORES, entry by entry: the row of the block against the column of the matrix. -/
theorem pay_apply (x0 : Vec Ideal S4096x200 .f32) (x1 : Vec Ideal S200x648 .bf16) (p : Fin 4096) (q : Fin 648) :
    k0_pay1 (F := Ideal) x0 x1 (ix2 p q) = ∑ k : Fin 200, x0 (ix2 p k) * x1 (ix2 k q) := by
  unfold k0_pay1
  refine (Cert.LibRows.matmul_zero_apply D contr_rank contr_size lhs_0 lhs_1 rhs_0 rhs_1 _ _ p q).trans ?_
  refine Finset.sum_congr rfl fun k _ => ?_
  rw [shapeCast_self]
  rfl

end Cert.KernelIdeal.BodyValue

end
-- ==== Proof.KernelValue.lean ====
/-
  The region's output array, as ONE function of the two arrays the region reads.

  The grid has 64 points. Point t takes rows 4096·t … 4096·t + 4095 of x (all 200 columns), the whole 200×648 matrix,
  and writes rows 4096·t … 4096·t + 4095 of the output (all 648 columns). The body's entry (p, q) is the row of the
  block against the column of the matrix, so what point t writes is rows 4096·t … of the array whose entry (b, n) is
  Σ_k x(b, k) · matrix(k, n). The 64 row blocks tile the output, so after the run the output IS that array.
-/
import proofs.«176551_j26628797235368_2_alg».proof.Proof.Gen.KernelIdeal.Frame
import proofs.«176551_j26628797235368_2_alg».proof.Proof.KernelPayload
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Entry (b, n): row b of the first array against column n of the second. -/
def rowsByCols (xa : S262144x200.Idx → EReal) (wa : S200x648.Idx → EReal) : S262144x648.Idx → EReal :=
  fun i => ∑ k : Fin 200, xa (ix2 (i 0) k) * wa (ix2 k (i 1))

/-- One term of the sum, once the block's positions are the array's. -/
theorem term_eq (xa : S262144x200.Idx → EReal) (wa : S200x648.Idx → EReal) (i0 : S262144x200.Idx) (i1 : S200x648.Idx)
    (i2 : S262144x648.Idx) (k : Fin 200) (h0 : i0 = ix2 (i2 0) k) (h1 : i1 = ix2 k (i2 1)) :
    xa i0 * wa i1 = xa (ix2 (i2 0) k) * wa (ix2 k (i2 1)) := by subst h0 h1; rfl

/-- Where each window's block sits at point t: x and the output move down the rows with t, the matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of `rowsByCols` of the two arrays as the region finds them. -/
theorem flushed_eq (c : Dev nD) (t : Fin cfg0.N) :
    (dats m 0 c).flushed 2 t
      = ((cfg0.win 2).blk t).view.read (Elt Ideal) (rowsByCols (V m c main_arg0) (V m c main_v129)) := by
  show (cfg0.win 2).cut (grid0.coords t) ((dats m 0 c).after 2 t) = _
  rw [after0_2]
  unfold out0_2
  rw [View.canon_unit_zero hz]
  simp only [View.ld_unit_zero (S := S4096x200) hz, View.ld_unit_zero (S := S200x648) hz]
  obtain ⟨e00, e01, e10, e11, e20, e21⟩ := idx_facts t
  funext j
  obtain ⟨p, q, rfl⟩ : ∃ (p : Fin 4096) (q : Fin 648), j = ix2 p q := ⟨j 0, j 1, eq_ix2 j⟩
  show k0_pay1 (iblk m c 0 t) (iblk m c 1 t) (ix2 p q)
    = rowsByCols (V m c main_arg0) (V m c main_v129) (((cfg0.win 2).blk t).view.emb (ix2 p q))
  rw [BodyValue.pay_apply]
  unfold rowsByCols
  refine Finset.sum_congr rfl fun k _ => ?_
  refine term_eq (V m c main_arg0) (V m c main_v129) (((cfg0.win 0).blk t).view.emb (ix2 p k))
    (((cfg0.win 1).blk t).view.emb (ix2 k q)) (((cfg0.win 2).blk t).view.emb (ix2 p q)) k ?_ ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 200 + 1 * k.val = k.val; omega
  · exact h0
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 200 + 1 * k.val = k.val; omega
    | ⟨1, _⟩ => show win0_1.index t (1 : Fin 2) * 648 + 1 * q.val = win0_2.index t (1 : Fin 2) * 648 + 1 * q.val; omega
  exact h1

/-- An index of the output is in point t's block iff each coordinate is in the block's range on its axis. -/
theorem mem_blk (t : Fin cfg0.N) (i : S262144x648.Idx) :
    i ∈ ((cfg0.win 2).blk t).view.set ↔ ∀ a : Fin 2, win0_2.index t a * S4096x648.size a ≤ (i a).val
      ∧ (i a).val < win0_2.index t a * S4096x648.size a + S4096x648.size a := by
  show i ∈ ((View.whole main_v130).slice (win0_2.rect t)).set ↔ _
  rw [View.set_slice_whole, Rect.mem_set_unit]
  exact Iff.rfl

/-- Row b of the output is in the block of point b / 4096. -/
theorem cover (i : S262144x648.Idx) :
    ∃ t : Fin cfg0.N, (cfg0.win 2).flush t = true ∧ i ∈ ((cfg0.win 2).blk t).view.set := by
  have hN : cfg0.N = 64 := N_0
  have hi0 : (i 0).val < 262144 := (i 0).isLt
  have hi1 : (i 1).val < 648 := (i 1).isLt
  have hlt : (i 0).val / 4096 < cfg0.N := by rw [hN]; omega
  obtain ⟨t, ht⟩ : ∃ t : Fin cfg0.N, t.val = (i 0).val / 4096 := ⟨⟨_, hlt⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 648 ≤ (i 1).val ∧ (i 1).val < win0_2.index t (1 : Fin 2) * 648 + 648
    omega

/-- THE OUTPUT ARRAY after the run: x's rows against the matrix's columns, both as the region finds them. -/
theorem final (c : Dev nD) :
    (dats m 0 c).arrAt 2 cfg0.N = rowsByCols (V m c main_arg0) (V m c main_v129) :=
  (dats m 0 c).arrAt_eq_of_cover 2 (rowsByCols (V m c main_arg0) (V m c main_v129))
    (fun t _ => flushed_eq m c t) cover

end Cert.KernelIdeal.RegionValue

end
-- ==== Proof.KernelRun.lean ====
/-
  The kernel's whole run, read: after the region one host line is left, the reshape of the 262144×648 output to
  262144×8×3×3×3×3. So the result is that reshape of the array whose entry (b, n) is row b of x against column n
  of the 200×648 matrix the host lines before the region built; the four arguments end as they were launched.
-/
import proofs.«176551_j26628797235368_2_alg».proof.Proof.Gen.KernelIdeal.Frame
import proofs.«176551_j26628797235368_2_alg».proof.Proof.KernelValue
import Idealize.ShloMosaic.Lib.Pipeline.Value
import Idealize.ShloMosaic.Lib.StableHlo.Run
import Idealize.ShloMosaic.PureOps.Ideal

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The host line after the region leaves the result buffer at the reshape of the region's output array. -/
theorem tail_eq (c : Dev nD) :
    (Pipeline.afterTail₀ cfgs (dats m) 0 (V0 m) [hostOps1] c main_v131 : S262144x8x3x3x3x3.Idx → EReal)
      = shapeCast S262144x8x3x3x3x3 ((dats m 0 c).arrAt 2 cfg0.N : S262144x648.Idx → EReal)
          shapeCasts_S262144x648_S262144x8x3x3x3x3 := by
  unfold Pipeline.afterTail₀
  show StableHlo.after hostOps1 _ (Proc.devRef .tc main_v131) = _
  after_results
  have hw : Pipeline.withArrays (cfgs 0).spec c (V0 m c) (fun w => (dats m 0 c).arrAt w (cfgs 0).N) (Proc.tc.devRef main_v130)
      = (dats m 0 c).arrAt 2 cfg0.N :=
    Pipeline.withArrays_arr spec0 launch0.win.arr_inj c (V0 m c) (fun w => (dats m 0 c).arrAt w cfg0.N) 2
  rw [hw]
  rfl

/-- The result buffer after the run: the reshape of x's rows against the matrix's columns. -/
theorem result_eq (c : Dev nD) :
    (Pipeline.afterTail₀ cfgs (dats m) 0 (V0 m) [hostOps1] c main_v131 : S262144x8x3x3x3x3.Idx → EReal)
      = shapeCast S262144x8x3x3x3x3
          (rowsByCols (m ((c.tc : Thread nD τ).loc main_arg0)) (V m c main_v129))
          shapeCasts_S262144x648_S262144x8x3x3x3x3 := by
  rw [tail_eq, final, V_main_arg0]

/-- THE RUN, READ: every weakly fair execution ends with the result at that reshape and the arguments unchanged. -/
theorem run : θ_run defs (onTc (τ := τ) (main (F := Ideal))) ⟨m, fun _ => 0, ρ⟩ (fun r => ∀ c : Dev nD,
      r.2.mem ((c.tc : Thread nD τ).loc main_v131)
        = shapeCast S262144x8x3x3x3x3 (rowsByCols (m ((c.tc : Thread nD τ).loc main_arg0)) (V m c main_v129))
            shapeCasts_S262144x648_S262144x8x3x3x3x3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v131 (Pipeline.mem_restRefs_of main_v131 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RegionValue

end
-- ==== Proof.RefRun.lean ====
/-
  The reference program's run, read back: its @main is a list of 33 host operations, every weakly fair execution of
  it terminates, and the result buffer ends at the operations' composed term of the four arguments, which stay
  unchanged. The composed term is split into named stages: the table of rows (the first constant table with the
  wrap-around of a negative entry applied), the table of divisors (the second constant table), the accumulated
  three products, and the quotient of the gathered products by the divisors.
-/
import proofs.«176551_j26628797235368_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

section Ops

variable {F : FTy → Type} [FloatOps F]

/-- @main's 33 operations, in order. -/
abbrev ops : List (HloOp τ sig (Elt F)) :=
  [
    nullary main_c (fun i => lit0 (S81.rowMajor i)),
    nullary main_cst (fun i => FloatOps.ofBits .f32 (lit1 (S81.rowMajor i))),
    unary main_arg0 main_v0 ((extractStridedSlice S262144x8 ![0, 0] · slices_S262144x200_S262144x8_0_0) : (⟨S262144x200, .f32⟩ : BufTy).Contents (Elt F) → (⟨S262144x8, .f32⟩ : BufTy).Contents (Elt F)),
    reshape main_v0 main_v1 rfl shapeCasts_S262144x8_S262144x8x1,
    unary main_arg0 main_v2 ((extractStridedSlice S262144x24 ![0, 8] · slices_S262144x200_S262144x24_0_8) : (⟨S262144x200, .f32⟩ : BufTy).Contents (Elt F) → (⟨S262144x24, .f32⟩ : BufTy).Contents (Elt F)),
    reshape main_v2 main_v3 rfl shapeCasts_S262144x24_S262144x8x3,
    unary main_arg0 main_v4 ((extractStridedSlice S262144x40 ![0, 32] · slices_S262144x200_S262144x40_0_32) : (⟨S262144x200, .f32⟩ : BufTy).Contents (Elt F) → (⟨S262144x40, .f32⟩ : BufTy).Contents (Elt F)),
    reshape main_v4 main_v5 rfl shapeCasts_S262144x40_S262144x8x5,
    unary main_arg0 main_v6 ((extractStridedSlice S262144x56 ![0, 72] · slices_S262144x200_S262144x56_0_72) : (⟨S262144x200, .f32⟩ : BufTy).Contents (Elt F) → (⟨S262144x56, .f32⟩ : BufTy).Contents (Elt F)),
    reshape main_v6 main_v7 rfl shapeCasts_S262144x56_S262144x8x7,
    unary main_arg0 main_v8 ((extractStridedSlice S262144x72 ![0, 128] · slices_S262144x200_S262144x72_0_128) : (⟨S262144x200, .f32⟩ : BufTy).Contents (Elt F) → (⟨S262144x72, .f32⟩ : BufTy).Contents (Elt F)),
    reshape main_v8 main_v9 rfl shapeCasts_S262144x72_S262144x8x9,
    binary main_v9 main_arg1 main_v10 ((fun l r => Host.dotGeneral dot_S262144x8x9_S15x9_S262144x8x15_2_1_01_0_n_n none l r) : (⟨S262144x8x9, .f32⟩ : BufTy).Contents (Elt F) → (⟨S15x9, .f32⟩ : BufTy).Contents (Elt F) → (⟨S262144x8x15, .f32⟩ : BufTy).Contents (Elt F)),
    nullary main_cst_0 (constant S_ .f32 0x00000000#32),
    unary main_cst_0 main_v11 (broadcastInDim S262144x8x15 ![] bcast_S_S262144x8x15 : (⟨S_, .f32⟩ : BufTy).Contents (Elt F) → (⟨S262144x8x15, .f32⟩ : BufTy).Contents (Elt F)),
    binary main_v11 main_v10 main_v12 (addf : (⟨S262144x8x15, .f32⟩ : BufTy).Contents (Elt F) → (⟨S262144x8x15, .f32⟩ : BufTy).Contents (Elt F) → (⟨S262144x8x15, .f32⟩ : BufTy).Contents (Elt F)),
    binary main_v5 main_arg2 main_v13 ((fun l r => Host.dotGeneral dot_S262144x8x5_S15x5_S262144x8x15_2_1_01_0_n_n none l r) : (⟨S262144x8x5, .f32⟩ : BufTy).Contents (Elt F) → (⟨S15x5, .f32⟩ : BufTy).Contents (Elt F) → (⟨S262144x8x15, .f32⟩ : BufTy).Contents (Elt F)),
    binary main_v12 main_v13 main_v14 (addf : (⟨S262144x8x15, .f32⟩ : BufTy).Contents (Elt F) → (⟨S262144x8x15, .f32⟩ : BufTy).Contents (Elt F) → (⟨S262144x8x15, .f32⟩ : BufTy).Contents (Elt F)),
    binary main_v1 main_arg3 main_v15 ((fun l r => Host.dotGeneral dot_S262144x8x1_S15x1_S262144x8x15_2_1_01_0_n_n none l r) : (⟨S262144x8x1, .f32⟩ : BufTy).Contents (Elt F) → (⟨S15x1, .f32⟩ : BufTy).Contents (Elt F) → (⟨S262144x8x15, .f32⟩ : BufTy).Contents (Elt F)),
    binary main_v14 main_v15 main_v16 (addf : (⟨S262144x8x15, .f32⟩ : BufTy).Contents (Elt F) → (⟨S262144x8x15, .f32⟩ : BufTy).Contents (Elt F) → (⟨S262144x8x15, .f32⟩ : BufTy).Contents (Elt F)),
    nullary main_c_1 (constantI S_ 32 0#32),
    unary main_c_1 main_v17 (broadcastInDim S81 ![] bcast_S_S81 : (⟨S_, .i32⟩ : BufTy).Contents (Elt F) → (⟨S81, .i32⟩ : BufTy).Contents (Elt F)),
    binary main_c main_v17 main_v18 (cmpi .slt : (⟨S81, .i32⟩ : BufTy).Contents (Elt F) → (⟨S81, .i32⟩ : BufTy).Contents (Elt F) → (⟨S81, .i1⟩ : BufTy).Contents (Elt F)),
    nullary main_c_2 (constantI S_ 32 15#32),
    unary main_c_2 main_v19 (broadcastInDim S81 ![] bcast_S_S81 : (⟨S_, .i32⟩ : BufTy).Contents (Elt F) → (⟨S81, .i32⟩ : BufTy).Contents (Elt F)),
    binary main_c main_v19 main_v20 (addi : (⟨S81, .i32⟩ : BufTy).Contents (Elt F) → (⟨S81, .i32⟩ : BufTy).Contents (Elt F) → (⟨S81, .i32⟩ : BufTy).Contents (Elt F)),
    ternary main_v18 main_v20 main_c main_v21 (select : (⟨S81, .i1⟩ : BufTy).Contents (Elt F) → (⟨S81, .i32⟩ : BufTy).Contents (Elt F) → (⟨S81, .i32⟩ : BufTy).Contents (Elt F) → (⟨S81, .i32⟩ : BufTy).Contents (Elt F)),
    unary main_v21 main_v22 (broadcastInDim S81x1 ![0] bcast_S81_S81x1_0 : (⟨S81, .i32⟩ : BufTy).Contents (Elt F) → (⟨S81x1, .i32⟩ : BufTy).Contents (Elt F)),
    binary main_v16 main_v22 main_v23 ((fun x i => Host.gather gather_S262144x8x15_S81x1_S262144x8x81_01_2_n_n_2_1_26214481 x i) : (⟨S262144x8x15, .f32⟩ : BufTy).Contents (Elt F) → (⟨S81x1, .i32⟩ : BufTy).Contents (Elt F) → (⟨S262144x8x81, .f32⟩ : BufTy).Contents (Elt F)),
    unary main_cst main_v24 (broadcastInDim S1x1x81 ![2] bcast_S81_S1x1x81_2 : (⟨S81, .f32⟩ : BufTy).Contents (Elt F) → (⟨S1x1x81, .f32⟩ : BufTy).Contents (Elt F)),
    unary main_v24 main_v25 (broadcastInDim S262144x8x81 ![0, 1, 2] bcast_S1x1x81_S262144x8x81_0_1_2 : (⟨S1x1x81, .f32⟩ : BufTy).Contents (Elt F) → (⟨S262144x8x81, .f32⟩ : BufTy).Contents (Elt F)),
    binary main_v23 main_v25 main_v26 (Host.divf : (⟨S262144x8x81, .f32⟩ : BufTy).Contents (Elt F) → (⟨S262144x8x81, .f32⟩ : BufTy).Contents (Elt F) → (⟨S262144x8x81, .f32⟩ : BufTy).Contents (Elt F)),
    reshape main_v26 main_v27 rfl shapeCasts_S262144x8x81_S262144x8x3x3x3x3 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub ..⟩

end Ops

/-- The row of the coefficient tables a Cartesian position reads: the first constant table's entry, as a number
    below 15. -/
def dm (j : Fin 81) : Fin 15 := ⟨(Cert.ReferenceIdeal.lit0 j).toNat % 15, Nat.mod_lt _ (by decide)⟩

/-- The multiplicity a Cartesian position's entry is divided by: the second constant table's entry. -/
def cf (j : Fin 81) : EReal := Ideal.ofBits .f32 (Cert.ReferenceIdeal.lit1 j)

/-- The first constant table as the program holds it. -/
def tab0 : IVec S81 32 := fun i => lit0 (S81.rowMajor i)

/-- The table of rows: an entry below zero is moved up by 15, the others are kept. -/
def rows : IVec S81 32 :=
  select (cmpi .slt tab0 (broadcastInDim S81 ![] bcast_S_S81 (constantI S_ 32 0#32)))
    (addi tab0 (broadcastInDim S81 ![] bcast_S_S81 (constantI S_ 32 15#32))) tab0

/-- The table of divisors as the program holds it. -/
def divs : FVec Ideal S81 .f32 := fun i => FloatOps.ofBits .f32 (lit1 (S81.rowMajor i))

/-- The three blocks' products with the coefficient tables, summed from zero in the order degree 4, 2, 0. -/
def acc (x : FVec Ideal S262144x200 .f32) (V4 : FVec Ideal S15x9 .f32) (V2 : FVec Ideal S15x5 .f32)
    (V0 : FVec Ideal S15x1 .f32) : FVec Ideal S262144x8x15 .f32 :=
  addf
    (addf
      (addf (broadcastInDim S262144x8x15 ![] bcast_S_S262144x8x15 (constant S_ .f32 0x00000000#32))
        (Host.dotGeneral dot_S262144x8x9_S15x9_S262144x8x15_2_1_01_0_n_n none
          (shapeCast _ (extractStridedSlice S262144x72 ![0, 128] x slices_S262144x200_S262144x72_0_128)
            shapeCasts_S262144x72_S262144x8x9) V4))
      (Host.dotGeneral dot_S262144x8x5_S15x5_S262144x8x15_2_1_01_0_n_n none
        (shapeCast _ (extractStridedSlice S262144x40 ![0, 32] x slices_S262144x200_S262144x40_0_32)
          shapeCasts_S262144x40_S262144x8x5) V2))
    (Host.dotGeneral dot_S262144x8x1_S15x1_S262144x8x15_2_1_01_0_n_n none
      (shapeCast _ (extractStridedSlice S262144x8 ![0, 0] x slices_S262144x200_S262144x8_0_0)
        shapeCasts_S262144x8_S262144x8x1) V0)

/-- The result before its last change of shape: at each Cartesian position the accumulated products' entry in the
    position's row, divided by the position's divisor. -/
def R3 (x : FVec Ideal S262144x200 .f32) (V4 : FVec Ideal S15x9 .f32) (V2 : FVec Ideal S15x5 .f32)
    (V0 : FVec Ideal S15x1 .f32) : FVec Ideal S262144x8x81 .f32 :=
  Host.divf
    (Host.gather gather_S262144x8x15_S81x1_S262144x8x81_01_2_n_n_2_1_26214481 (acc x V4 V2 V0)
      (broadcastInDim S81x1 ![0] bcast_S81_S81x1_0 rows))
    (broadcastInDim S262144x8x81 ![0, 1, 2] bcast_S1x1x81_S262144x8x81_0_1_2
      (broadcastInDim S1x1x81 ![2] bcast_S81_S1x1x81_2 divs))

set_option maxRecDepth 8192 in
set_option maxHeartbeats 32800000 in
/-- On the one device, from any memory with zero counters: every weakly fair execution of @main terminates with
    the result at the reshaped quotient of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) =
          shapeCast S262144x8x3x3x3x3
            (R3 (m ((c.tc : Thread nD τ).loc main_arg0)) (m ((c.tc : Thread nD τ).loc main_arg1))
              (m ((c.tc : Thread nD τ).loc main_arg2)) (m ((c.tc : Thread nD τ).loc main_arg3)))
            shapeCasts_S262144x8x81_S262144x8x3x3x3x3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v27).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefValue

end
-- ==== Proof.Spec.lean ====
/-
  The specification both programs are compared with, index by index, on the extended reals.

  A row of x holds, for each of 8 channels c, three blocks of components: the degree-0 block (1 component, column c),
  the degree-2 block (5 components, columns 32 + 5c + m) and the degree-4 block (9 components, columns 128 + 9c + m).
  Entry (b, c, j) of the result, j one of the 81 Cartesian positions, is

      ( 0 + Σ_m x[b, 128+9c+m]·V4[dm j, m] + Σ_m x[b, 32+5c+m]·V2[dm j, m] + Σ_m x[b, c+m]·V0[dm j, m] ) / cf j

  where dm j is the monomial the position j belongs to and cf j its multiplicity. The same number is a row of x
  against a column of one 200×648 matrix whose only entries off zero are V_l[dm j, m] / cf j at row (the block's
  column of x) and column 81c + j: that matrix is `wEntry`. The tables dm and cf are parameters here.
-/
import Idealize.ShloMosaic.PureOps.Ideal
import Idealize.ShloMosaic.Lib.ValueIdx

noncomputable section

namespace Cert.Spec

open Idealize.ShloMosaic Idealize.ShloMosaic.ValueIdx

abbrev SX : Shape := ⟨2, ![262144, 200]⟩
abbrev SV4 : Shape := ⟨2, ![15, 9]⟩
abbrev SV2 : Shape := ⟨2, ![15, 5]⟩
abbrev SV0 : Shape := ⟨2, ![15, 1]⟩

/-- The column of x that holds component m of channel c's degree-4 block. -/
def col4 (c : Fin 8) (m : Fin 9) : Fin 200 := ⟨128 + 9 * c.val + m.val, by omega⟩
/-- The column of x that holds component m of channel c's degree-2 block. -/
def col2 (c : Fin 8) (m : Fin 5) : Fin 200 := ⟨32 + 5 * c.val + m.val, by omega⟩
/-- The column of x that holds the one component of channel c's degree-0 block. -/
def col0 (c : Fin 8) (m : Fin 1) : Fin 200 := ⟨c.val + m.val, by omega⟩

/-- The channel a column of the 200×648 matrix belongs to. -/
def chan (n : Fin 648) : Fin 8 := ⟨n.val / 81, by omega⟩
/-- The Cartesian position a column of the 200×648 matrix belongs to. -/
def pos (n : Fin 648) : Fin 81 := ⟨n.val % 81, by omega⟩
/-- Column 81c + j. -/
def colOf (c : Fin 8) (j : Fin 81) : Fin 648 := ⟨81 * c.val + j.val, by omega⟩

theorem chan_colOf (c : Fin 8) (j : Fin 81) : chan (colOf c j) = c := by
  apply Fin.ext; simp only [chan, colOf]; omega
theorem pos_colOf (c : Fin 8) (j : Fin 81) : pos (colOf c j) = j := by
  apply Fin.ext; simp only [pos, colOf]; omega
theorem colOf_chan_pos (n : Fin 648) : colOf (chan n) (pos n) = n := by
  apply Fin.ext; simp only [chan, pos, colOf]; omega

variable (dm : Fin 81 → Fin 15) (cf : Fin 81 → EReal)
  (x : SX.Idx → EReal) (V4 : SV4.Idx → EReal) (V2 : SV2.Idx → EReal) (V0 : SV0.Idx → EReal)

/-- Entry (b, c, j) of the result: the three blocks' products summed from zero in the order degree 4, 2, 0, then
    divided by the position's multiplicity. -/
def refVal (b : Fin 262144) (c : Fin 8) (j : Fin 81) : EReal :=
  Ideal.div
    (((0 + ∑ m : Fin 9, x (ix2 b (col4 c m)) * V4 (ix2 (dm j) m))
        + ∑ m : Fin 5, x (ix2 b (col2 c m)) * V2 (ix2 (dm j) m))
      + ∑ m : Fin 1, x (ix2 b (col0 c m)) * V0 (ix2 (dm j) m))
    (cf j)

/-- Entry (k, n) of the 200×648 matrix: rows 0…7 are the degree-0 blocks, rows 32…71 the degree-2 blocks, rows
    128…199 the degree-4 blocks; row k meets column n off zero only when k's channel is n's. -/
def wEntry (k : Fin 200) (n : Fin 648) : EReal :=
  if k.val < 8 then
    (if k.val = n.val / 81 then Ideal.div (V0 (ix2 (dm (pos n)) (0 : Fin 1))) (cf (pos n)) else 0)
  else if h2 : 32 ≤ k.val ∧ k.val < 72 then
    (if (k.val - 32) / 5 = n.val / 81 then
      Ideal.div (V2 (ix2 (dm (pos n)) (⟨(k.val - 32) % 5, Nat.mod_lt _ (by decide)⟩ : Fin 5))) (cf (pos n)) else 0)
  else if h4 : 128 ≤ k.val then
    (if (k.val - 128) / 9 = n.val / 81 then
      Ideal.div (V4 (ix2 (dm (pos n)) (⟨(k.val - 128) % 9, Nat.mod_lt _ (by decide)⟩ : Fin 9))) (cf (pos n)) else 0)
  else 0

end Cert.Spec

end
-- ==== Proof.LibGatherRows.lean ====
/-
  A gather of whole rows of a matrix, read at one entry.

  The operand is an N×M matrix, the start indices an R×1 integer matrix: one row number per result row. Result entry
  (t, a) is the operand's entry (row t's start index, a), the start index read as a signed integer and clamped into
  [0, N − 1]. These are the dimension numbers of `x[idx]` for a matrix x and a vector idx of row numbers: the
  result's axis 1 is the one offset axis, operand axis 0 is collapsed, the index vector (axis 1 of the start
  indices, of length 1) names operand axis 0, and a slice is one whole row.
-/
import Idealize.ShloMosaic.PureOps
import Idealize.ShloMosaic.Lib.ValueIdx

namespace Cert.LibGatherRows

open Idealize.ShloMosaic Idealize.ShloMosaic.ValueIdx

variable {α : Type}

/-- Those dimension numbers for an operand N×M, start indices R×1 and result R×M. -/
abbrev rowDims (N M R : Nat) (wf : GatherDims.WF ⟨2, ![N, M]⟩ ⟨2, ![R, 1]⟩ ⟨2, ![R, M]⟩ [1] [0] [] [0] [] 1 ![1, M]) :
    GatherDims ⟨2, ![N, M]⟩ ⟨2, ![R, 1]⟩ ⟨2, ![R, M]⟩ where
  offsetDims := [1]
  collapsedSliceDims := [0]
  operandBatchingDims := []
  startIndicesBatchingDims := []
  startIndexMap := [0]
  indexVectorDim := 1
  sliceSizes := ![1, M]
  wf := wf

/-- THE GATHER READ AT (t, a): the operand at (row t's start index read signed and clamped into [0, N − 1], a). -/
theorem gather_rows_apply {N M R w : Nat} (hN : 0 < N)
    (wf : GatherDims.WF ⟨2, ![N, M]⟩ ⟨2, ![R, 1]⟩ ⟨2, ![R, M]⟩ [1] [0] [] [0] [] 1 ![1, M])
    (x : (⟨2, ![N, M]⟩ : Shape).Idx → α) (idx : IVec ⟨2, ![R, 1]⟩ w) (t : Fin R) (a : Fin M) :
    Host.gather (rowDims N M R wf) x idx (ix2 t a)
      = x (ix2 (⟨min (idx (ix2 t (0 : Fin 1))).toInt.toNat (N - 1), by omega⟩ : Fin N) a) := by
  unfold Host.gather
  refine congrArg x ?_
  funext b
  match b with
  | ⟨0, _⟩ =>
    refine Fin.ext ?_
    show (rowDims N M R wf).start (ix2 t a) idx (0 : Fin 2) + (rowDims N M R wf).batchCoord (ix2 t a) (0 : Fin 2)
      + (rowDims N M R wf).offCoord (ix2 t a) (0 : Fin 2) = min (idx (ix2 t (0 : Fin 1))).toInt.toNat (N - 1)
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims N M R wf).startIndexMap from List.mem_singleton.mpr rfl)]
    have hsi : (rowDims N M R wf).siIdx (ix2 t a) ⟨List.idxOf (0 : Fin 2) (rowDims N M R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    refine Fin.ext ?_
    show (rowDims N M R wf).start (ix2 t a) idx (1 : Fin 2) + (rowDims N M R wf).batchCoord (ix2 t a) (1 : Fin 2)
      + (rowDims N M R wf).offCoord (ix2 t a) (1 : Fin 2) = a.val
    have h10 : (1 : Fin 2) ≠ 0 := by decide
    have h1 : (1 : Fin 2) ∉ (rowDims N M R wf).startIndexMap := by
      intro hm; exact absurd (List.mem_singleton.mp hm) h10
    have hk : (1 : Fin 2) ∈ (rowDims N M R wf).sKept := by
      rw [GatherDims.mem_sKept]
      exact ⟨fun hm => absurd (List.mem_singleton.mp hm) h10, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows
-- ==== Proof.KernelWBlocks.lean ====
/-
  The three blocks the program writes into its 200×648 matrix, read at an entry.

  Each block is built from one coefficient table V (15 rows, one per monomial; 1, 5 or 9 columns): the program takes,
  for each of the 81 Cartesian positions j, row dm j of V (a gather of whole rows at the table of monomial numbers,
  a negative number wrapped by adding 15, every row number clamped into [0, 14]), divides it by the position's
  multiplicity cf j, and transposes. Every monomial number in the table lies in [0, 14], so the wrap and the clamp
  change nothing and the row taken is the table's entry itself: entry (a, j) of the block is V[dm j, a] / cf j.
-/
import proofs.«176551_j26628797235368_2_alg».proof.Proof.Gen.KernelIdeal
import proofs.«176551_j26628797235368_2_alg».proof.Proof.LibGatherRows
import Idealize.ShloMosaic.Lib.ValueLayout
import Idealize.ShloMosaic.Lib.IdealHost

set_option maxRecDepth 16384

noncomputable section

namespace Cert.KernelIdeal.WValue

open Idealize.ShloMosaic Idealize.ShloMosaic.ValueIdx Cert.LibGatherRows
open Facts₀ Facts

/-- The monomial a Cartesian position belongs to: the program's integer table. -/
def dm (j : Fin 81) : Fin 15 := ⟨(Cert.KernelIdeal.lit0 j).toNat % 15, Nat.mod_lt _ (by decide)⟩
/-- The multiplicity of a Cartesian position's monomial: the program's float table. -/
def cf (j : Fin 81) : EReal := Ideal.ofBits .f32 (Cert.KernelIdeal.lit1 j)

/-- The row numbers the gathers take: the table of monomial numbers, a negative entry wrapped by adding 15, as a
    column. -/
def rowIdx : IVec S81x1 32 :=
  broadcastInDim S81x1 ![0] bcast_S81_S81x1_0
    (select (cmpi .slt (fun i => lit0 (S81.rowMajor i)) (broadcastInDim S81 ![] bcast_S_S81 (constantI S_ 32 0#32)))
      (addi (fun i => lit0 (S81.rowMajor i)) (broadcastInDim S81 ![] bcast_S_S81 (constantI S_ 32 15#32)))
      (fun i => lit0 (S81.rowMajor i)))

/-- The multiplicities as a column. -/
def multCol : FVec Ideal S81x1 .f32 :=
  broadcastInDim S81x1 ![0] bcast_S81_S81x1_0 (fun i => FloatOps.ofBits .f32 (lit1 (S81.rowMajor i)))

/-- The degree-0 block: 1×81. -/
def blk0 (V0 : S15x1.Idx → EReal) : S1x81.Idx → EReal :=
  transpose S1x81 [1, 0] (Host.divf (Host.gather gather_S15x1_S81x1_S81x1_1_0_n_n_0_1_11 V0 rowIdx) multCol)
    transposes_S81x1_S1x81_1_0
/-- The degree-2 block: 5×81. -/
def blk2 (V2 : S15x5.Idx → EReal) : S5x81.Idx → EReal :=
  transpose S5x81 [1, 0] (Host.divf (Host.gather gather_S15x5_S81x1_S81x5_1_0_n_n_0_1_15 V2 rowIdx)
    (broadcastInDim S81x5 ![0, 1] bcast_S81x1_S81x5_0_1 multCol)) transposes_S81x5_S5x81_1_0
/-- The degree-4 block: 9×81. -/
def blk4 (V4 : S15x9.Idx → EReal) : S9x81.Idx → EReal :=
  transpose S9x81 [1, 0] (Host.divf (Host.gather gather_S15x9_S81x1_S81x9_1_0_n_n_0_1_19 V4 rowIdx)
    (broadcastInDim S81x9 ![0, 1] bcast_S81x1_S81x9_0_1 multCol)) transposes_S81x9_S9x81_1_0

/-- A vector of 81 entries made a column reads, at (j, 0), the vector at j. -/
theorem col_apply {α : Type} (x : S81.Idx → α) (j : Fin 81) (z : Fin 1) :
    broadcastInDim S81x1 ![0] bcast_S81_S81x1_0 x (ix2 j z) = x (ix1 j) := by
  unfold broadcastInDim
  refine congrArg x (funext fun a => ?_)
  match a with
  | ⟨0, _⟩ => rfl

/-- A column of 81 entries repeated along M columns reads, at (j, a), the column at (j, 0). -/
theorem rep_apply {α : Type} {M : Nat} (h : S81x1.BroadcastsInDim ⟨2, ![81, M]⟩ ![0, 1]) (y : S81x1.Idx → α) (j : Fin 81)
    (a : Fin M) : broadcastInDim ⟨2, ![81, M]⟩ ![0, 1] h y (ix2 j a) = y (ix2 j (0 : Fin 1)) := by
  unfold broadcastInDim
  refine congrArg y (funext fun b => ?_)
  match b with
  | ⟨0, _⟩ => rfl
  | ⟨1, _⟩ => rfl

/-- Position j of a flat 81-entry array is entry j. -/
theorem flat_at (j : Fin 81) : S81.rowMajor (ix1 j) = j := Fin.ext (Shape.rowMajor_val_one (ix1 j))

/-- The row number taken for position j, before the clamp. -/
theorem rowIdx_at (j : Fin 81) (z : Fin 1) :
    rowIdx (ix2 j z) = Scalar.select (IntOp.cmpi .slt (lit0 j) 0#32) (IntOp.addi (lit0 j) 15#32) (lit0 j) := by
  unfold rowIdx
  rw [col_apply]
  show Scalar.select (IntOp.cmpi .slt (lit0 (S81.rowMajor (ix1 j))) 0#32) (IntOp.addi (lit0 (S81.rowMajor (ix1 j))) 15#32)
    (lit0 (S81.rowMajor (ix1 j))) = _
  rw [flat_at]

/-- The multiplicity column at (j, 0). -/
theorem multCol_at (j : Fin 81) (z : Fin 1) : multCol (ix2 j z) = cf j := by
  unfold multCol
  rw [col_apply]
  show Ideal.ofBits .f32 (lit1 (S81.rowMajor (ix1 j))) = _
  rw [flat_at]
  rfl

/-- Every entry of the table of monomial numbers lies in [0, 14]: neither the wrap nor the clamp changes it. -/
theorem row_table : ∀ j : Fin 81,
    min (Scalar.select (IntOp.cmpi .slt (lit0 j) 0#32) (IntOp.addi (lit0 j) 15#32) (lit0 j)).toInt.toNat (15 - 1)
      = (lit0 j).toNat % 15 := by decide

/-- The gather of rows of a 15-row table at the row numbers reads, at (j, a), the table at (dm j, a). -/
theorem gath {M : Nat} (wf : GatherDims.WF ⟨2, ![15, M]⟩ ⟨2, ![81, 1]⟩ ⟨2, ![81, M]⟩ [1] [0] [] [0] [] 1 ![1, M])
    (V : (⟨2, ![15, M]⟩ : Shape).Idx → EReal) (j : Fin 81) (a : Fin M) :
    Host.gather (rowDims 15 M 81 wf) V rowIdx (ix2 j a) = V (ix2 (dm j) a) := by
  rw [gather_rows_apply (by decide)]
  refine congrArg (fun r => V (ix2 r a)) (Fin.ext ?_)
  show min (rowIdx (ix2 j (0 : Fin 1))).toInt.toNat (15 - 1) = (lit0 j).toNat % 15
  rw [rowIdx_at]
  exact row_table j

/-- THE DEGREE-0 BLOCK AT (0, j). -/
theorem blk0_apply (V0 : S15x1.Idx → EReal) (z : Fin 1) (j : Fin 81) :
    blk0 V0 (ix2 z j) = Ideal.div (V0 (ix2 (dm j) (0 : Fin 1))) (cf j) := by
  unfold blk0
  refine (transpose_ix2_apply _ _ _ _).trans ?_
  show Ideal.div (Host.gather (rowDims 15 1 81 gather_S15x1_S81x1_S81x1_1_0_n_n_0_1_11_wf) V0 rowIdx (ix2 j z)) (multCol (ix2 j z)) = _
  rw [gath, multCol_at]
  obtain rfl : z = 0 := Subsingleton.elim _ _
  rfl

/-- THE DEGREE-2 BLOCK AT (a, j). -/
theorem blk2_apply (V2 : S15x5.Idx → EReal) (a : Fin 5) (j : Fin 81) :
    blk2 V2 (ix2 a j) = Ideal.div (V2 (ix2 (dm j) a)) (cf j) := by
  unfold blk2
  refine (transpose_ix2_apply _ _ _ _).trans ?_
  show Ideal.div (Host.gather (rowDims 15 5 81 gather_S15x5_S81x1_S81x5_1_0_n_n_0_1_15_wf) V2 rowIdx (ix2 j a))
    (broadcastInDim S81x5 ![0, 1] bcast_S81x1_S81x5_0_1 multCol (ix2 j a)) = _
  rw [gath, rep_apply, multCol_at]

/-- THE DEGREE-4 BLOCK AT (a, j). -/
theorem blk4_apply (V4 : S15x9.Idx → EReal) (a : Fin 9) (j : Fin 81) :
    blk4 V4 (ix2 a j) = Ideal.div (V4 (ix2 (dm j) a)) (cf j) := by
  unfold blk4
  refine (transpose_ix2_apply _ _ _ _).trans ?_
  show Ideal.div (Host.gather (rowDims 15 9 81 gather_S15x9_S81x1_S81x9_1_0_n_n_0_1_19_wf) V4 rowIdx (ix2 j a))
    (broadcastInDim S81x9 ![0, 1] bcast_S81x1_S81x9_0_1 multCol (ix2 j a)) = _
  rw [gath, rep_apply, multCol_at]

end Cert.KernelIdeal.WValue
-- ==== Proof.LibScatterSet.lean ====
/-
  A scatter whose body returns the update ("set"), read at one index of its result.

  The scatter is a left fold over the update's indices in row-major order: each step overwrites the result at the
  operand index its update index lands at, and does nothing when that index falls outside the operand. Reading the fold
  at a fixed operand index i': a step whose update index does not land at i' leaves the value there alone, a step whose
  update index lands at i' replaces it by the update's element. So when no update index lands at i' the result holds the
  operand's element, and when exactly one update index j lands at i' the result holds the update's element at j — the
  steps after j's do not touch i'. Nothing here depends on the shapes or on the element type.
-/
import Idealize.ShloMosaic.PureOps

namespace Cert.LibScatterSet

open Idealize.ShloMosaic

variable {s si u : Shape} {α : Type} {w : Nat}

/-- One step of the fold: the update's element at update index `j` written over `r` at the operand index `j` lands
    at, or `r` unchanged when `j` lands outside the operand. -/
def put (d : ScatterDims s si u) (idx : IVec si w) (upd : u.Idx → α) (r : s.Idx → α) (j : u.Idx) : s.Idx → α :=
  match d.resultIdx? j idx with
  | some i => fun i' => if i' = i then upd j else r i'
  | none => r

/-- A step whose update index lands at `i'` leaves the update's element there. -/
theorem put_of_eq (d : ScatterDims s si u) (idx : IVec si w) (upd : u.Idx → α) (r : s.Idx → α) {j : u.Idx} {i' : s.Idx}
    (h : d.resultIdx? j idx = some i') : put d idx upd r j i' = upd j := by
  unfold put
  rw [h]
  exact if_pos rfl

/-- A step whose update index does not land at `i'` leaves what was there. -/
theorem put_of_ne (d : ScatterDims s si u) (idx : IVec si w) (upd : u.Idx → α) (r : s.Idx → α) {j : u.Idx} {i' : s.Idx}
    (h : d.resultIdx? j idx ≠ some i') : put d idx upd r j i' = r i' := by
  unfold put
  cases hres : d.resultIdx? j idx with
  | none => rfl
  | some i =>
    have hne : i' ≠ i := fun e => h (by rw [hres, e])
    exact if_neg hne

/-- The scatter whose body returns the update is the fold of `put` over the update's indices in row-major order. -/
theorem scatter_eq_foldl (d : ScatterDims s si u) (x : s.Idx → α) (idx : IVec si w) (upd : u.Idx → α) :
    Host.scatter d (fun _ b => b) x idx upd = ((List.finRange u.numel).map u.rowMajor.symm).foldl (put d idx upd) x := by
  rw [List.foldl_map]
  rfl

/-- Steps none of whose update indices lands at `i'` leave what was there. -/
theorem foldl_put_miss (d : ScatterDims s si u) (idx : IVec si w) (upd : u.Idx → α) (l : List u.Idx) (x : s.Idx → α)
    (i' : s.Idx) (h : ∀ j ∈ l, d.resultIdx? j idx ≠ some i') : l.foldl (put d idx upd) x i' = x i' := by
  induction l generalizing x with
  | nil => rfl
  | cons a l ih =>
    rw [List.foldl_cons, ih _ (fun j hj => h j (List.mem_cons_of_mem _ hj)), put_of_ne d idx upd x (h a List.mem_cons_self)]

/-- Steps among which `j` occurs, lands at `i'`, and is the only update index that does, leave the update's element
    at `j`: the steps before it are overwritten, the steps after it do not touch `i'`. -/
theorem foldl_put_hit (d : ScatterDims s si u) (idx : IVec si w) (upd : u.Idx → α) (l : List u.Idx) (x : s.Idx → α)
    {j : u.Idx} {i' : s.Idx} (hj : d.resultIdx? j idx = some i')
    (H : ∀ j' ∈ l, d.resultIdx? j' idx = some i' → j' = j) (hjl : j ∈ l) :
    l.foldl (put d idx upd) x i' = upd j := by
  induction l generalizing x with
  | nil => exact absurd hjl List.not_mem_nil
  | cons a l ih =>
    rw [List.foldl_cons]
    by_cases hjl' : j ∈ l
    · exact ih _ (fun j' hj' => H j' (List.mem_cons_of_mem _ hj')) hjl'
    · have ha : a = j := by
        rcases List.mem_cons.mp hjl with e | e
        · exact e.symm
        · exact absurd e hjl'
      subst ha
      rw [foldl_put_miss d idx upd l _ i' (fun j' hj' e => hjl' (H j' (List.mem_cons_of_mem _ hj') e ▸ hj')),
        put_of_eq d idx upd x hj]

/-- THE SCATTER READ WHERE ONE UPDATE LANDS: if update index `j` lands at operand index `i'` and no other update index
    does, the result at `i'` is the update's element at `j`. -/
theorem scatter_set_hit (d : ScatterDims s si u) (x : s.Idx → α) (idx : IVec si w) (upd : u.Idx → α) {j : u.Idx} {i' : s.Idx}
    (hj : d.resultIdx? j idx = some i') (huniq : ∀ j', d.resultIdx? j' idx = some i' → j' = j) :
    Host.scatter d (fun _ b => b) x idx upd i' = upd j := by
  rw [scatter_eq_foldl]
  exact foldl_put_hit d idx upd _ x hj (fun j' _ e => huniq j' e)
    (List.mem_map.mpr ⟨u.rowMajor j, List.mem_finRange _, u.rowMajor.symm_apply_apply j⟩)

/-- The same under injectivity of the landing map on the update indices that land inside the operand. -/
theorem scatter_set_hit_of_injective (d : ScatterDims s si u) (x : s.Idx → α) (idx : IVec si w) (upd : u.Idx → α)
    (hinj : ∀ (j j' : u.Idx) (i : s.Idx), d.resultIdx? j idx = some i → d.resultIdx? j' idx = some i → j' = j)
    {j : u.Idx} {i' : s.Idx} (hj : d.resultIdx? j idx = some i') :
    Host.scatter d (fun _ b => b) x idx upd i' = upd j :=
  scatter_set_hit d x idx upd hj (fun j' e => hinj j j' i' hj e)

/-- THE SCATTER READ WHERE NO UPDATE LANDS: if no update index lands at operand index `i'`, the result at `i'` is the
    operand's element. -/
theorem scatter_set_miss (d : ScatterDims s si u) (x : s.Idx → α) (idx : IVec si w) (upd : u.Idx → α) {i' : s.Idx}
    (hmiss : ∀ j, d.resultIdx? j idx ≠ some i') :
    Host.scatter d (fun _ b => b) x idx upd i' = x i' := by
  rw [scatter_eq_foldl]
  exact foldl_put_miss d idx upd _ x i' (fun j _ => hmiss j)

end Cert.LibScatterSet
-- ==== Proof.LibWindowSet.lean ====
/-
  A scatter that writes one rectangular window of a matrix, read at one entry.

  The operand is an R×C matrix, the update an h×w matrix, and the scatter indices are ONE vector of two integers
  (r0, c0): the window's upper left corner. Update entry (a, b) lands at operand entry (r0 + a, c0 + b), the two
  sums taken over the integers with the corner read signed, and is dropped when that entry is outside the operand.
  So distinct update entries land at distinct operand entries, and when the body returns the update ("set") the
  result at (k, n) is the update's entry (k − r0, n − c0) when (k, n) lies in the window and the operand's entry
  when it does not. The corner is given by its two integers; nothing depends on the element type or on the width
  of the index words.
-/
import Idealize.ShloMosaic.PureOps
import Idealize.ShloMosaic.Lib.ValueIdx
import proofs.«176551_j26628797235368_2_alg».proof.Proof.LibScatterSet

namespace Cert.LibWindowSet

open Idealize.ShloMosaic Idealize.ShloMosaic.ValueIdx

variable {α : Type} {R C h w bw : Nat}

/-- The dimension numbers of a window write: both update axes are window axes, no operand axis is inserted, the
    index vector (axis 0 of the scatter indices) names operand axes 0 and 1 in this order. -/
abbrev winDims (R C h w : Nat) (wf : ScatterDims.WF ⟨2, ![R, C]⟩ ⟨1, ![2]⟩ ⟨2, ![h, w]⟩ [0, 1] [] [0, 1] 0) :
    ScatterDims ⟨2, ![R, C]⟩ ⟨1, ![2]⟩ ⟨2, ![h, w]⟩ where
  updateWindowDims := [0, 1]
  insertedWindowDims := []
  scatterDimsToOperandDims := [0, 1]
  indexVectorDim := 0
  wf := wf

variable (wf : ScatterDims.WF ⟨2, ![R, C]⟩ ⟨1, ![2]⟩ ⟨2, ![h, w]⟩ [0, 1] [] [0, 1] 0)

/-- The window starts, on the row axis, at the index vector's first entry read signed. -/
theorem start_row (j : (⟨2, ![h, w]⟩ : Shape).Idx) (idx : IVec ⟨1, ![2]⟩ bw) :
    (winDims R C h w wf).start j idx (0 : Fin 2) = (idx (ix1 (0 : Fin 2))).toInt := by
  unfold ScatterDims.start
  rw [dif_pos (show (0 : Fin 2) ∈ (winDims R C h w wf).scatterDimsToOperandDims from List.mem_cons_self)]
  refine congrArg (fun i => (idx i).toInt) ?_
  funext b
  match b with
  | ⟨0, _⟩ => rfl

/-- The window starts, on the column axis, at the index vector's second entry read signed. -/
theorem start_col (j : (⟨2, ![h, w]⟩ : Shape).Idx) (idx : IVec ⟨1, ![2]⟩ bw) :
    (winDims R C h w wf).start j idx (1 : Fin 2) = (idx (ix1 (1 : Fin 2))).toInt := by
  unfold ScatterDims.start
  rw [dif_pos (show (1 : Fin 2) ∈ (winDims R C h w wf).scatterDimsToOperandDims from
    List.mem_cons_of_mem _ List.mem_cons_self)]
  refine congrArg (fun i => (idx i).toInt) ?_
  funext b
  match b with
  | ⟨0, _⟩ => rfl

/-- Both operand axes are kept: none is inserted. -/
theorem mem_sKept (a : Fin 2) : a ∈ (winDims R C h w wf).sKept := by
  simp [ScatterDims.sKept, Shape.kept]

/-- The window coordinate on the row axis is the update index's row. -/
theorem window_row (j : (⟨2, ![h, w]⟩ : Shape).Idx) : (winDims R C h w wf).window j (0 : Fin 2) = (j 0).val := by
  unfold ScatterDims.window
  rw [dif_pos (mem_sKept wf 0)]
  rfl

/-- The window coordinate on the column axis is the update index's column. -/
theorem window_col (j : (⟨2, ![h, w]⟩ : Shape).Idx) : (winDims R C h w wf).window j (1 : Fin 2) = (j 1).val := by
  unfold ScatterDims.window
  rw [dif_pos (mem_sKept wf 1)]
  rfl

section Landing

variable (idx : IVec ⟨1, ![2]⟩ bw) {r0 c0 : Nat}
  (hr : (idx (ix1 (0 : Fin 2))).toInt = (r0 : Int)) (hc : (idx (ix1 (1 : Fin 2))).toInt = (c0 : Int))
  (hR : r0 + h ≤ R) (hC : c0 + w ≤ C)

include hr hc hR hC

/-- WHERE AN UPDATE ENTRY LANDS: with the corner at (r0, c0) and the window inside the operand, update entry j lands
    at operand entry (r0 + j 0, c0 + j 1). -/
theorem resultIdx?_eq (j : (⟨2, ![h, w]⟩ : Shape).Idx) :
    (winDims R C h w wf).resultIdx? j idx
      = some (ix2 (⟨r0 + (j 0).val, by have := idx2_lt0 j; omega⟩ : Fin R) (⟨c0 + (j 1).val, by have := idx2_lt1 j; omega⟩ : Fin C)) := by
  have h0 := idx2_lt0 j
  have h1 := idx2_lt1 j
  have hb : ∀ a, 0 ≤ (winDims R C h w wf).start j idx a + (winDims R C h w wf).window j a
      ∧ (winDims R C h w wf).start j idx a + (winDims R C h w wf).window j a < (⟨2, ![R, C]⟩ : Shape).size a := by
    intro a
    match a with
    | ⟨0, _⟩ =>
      show 0 ≤ (winDims R C h w wf).start j idx (0 : Fin 2) + ((winDims R C h w wf).window j (0 : Fin 2) : Int)
        ∧ (winDims R C h w wf).start j idx (0 : Fin 2) + ((winDims R C h w wf).window j (0 : Fin 2) : Int) < (R : Int)
      rw [start_row, window_row, hr]; omega
    | ⟨1, _⟩ =>
      show 0 ≤ (winDims R C h w wf).start j idx (1 : Fin 2) + ((winDims R C h w wf).window j (1 : Fin 2) : Int)
        ∧ (winDims R C h w wf).start j idx (1 : Fin 2) + ((winDims R C h w wf).window j (1 : Fin 2) : Int) < (C : Int)
      rw [start_col, window_col, hc]; omega
  unfold ScatterDims.resultIdx?
  rw [dif_pos hb]
  refine congrArg some ?_
  funext a
  match a with
  | ⟨0, _⟩ =>
    refine Fin.ext ?_
    show ((winDims R C h w wf).start j idx (0 : Fin 2) + ((winDims R C h w wf).window j (0 : Fin 2) : Int)).toNat = r0 + (j 0).val
    rw [start_row, window_row, hr]; omega
  | ⟨1, _⟩ =>
    refine Fin.ext ?_
    show ((winDims R C h w wf).start j idx (1 : Fin 2) + ((winDims R C h w wf).window j (1 : Fin 2) : Int)).toNat = c0 + (j 1).val
    rw [start_col, window_col, hc]; omega

/-- Distinct update entries land at distinct operand entries. -/
theorem resultIdx?_inj (j j' : (⟨2, ![h, w]⟩ : Shape).Idx) (i : (⟨2, ![R, C]⟩ : Shape).Idx)
    (e : (winDims R C h w wf).resultIdx? j idx = some i) (e' : (winDims R C h w wf).resultIdx? j' idx = some i) : j' = j := by
  rw [resultIdx?_eq wf idx hr hc hR hC j] at e
  rw [resultIdx?_eq wf idx hr hc hR hC j'] at e'
  have ee := (Option.some.inj e).trans (Option.some.inj e').symm
  have e0 := congrArg Fin.val (congrFun ee (0 : Fin 2))
  have e1 := congrArg Fin.val (congrFun ee (1 : Fin 2))
  change r0 + (j 0).val = r0 + (j' 0).val at e0
  change c0 + (j 1).val = c0 + (j' 1).val at e1
  rw [eq_ix2 j, eq_ix2 j']
  have a0 : j' 0 = j 0 := Fin.ext (by omega)
  have a1 : j' 1 = j 1 := Fin.ext (by omega)
  rw [a0, a1]

/-- THE WINDOW WRITE READ AT (k, n): the update's entry (k − r0, n − c0) inside the window, the operand's entry
    outside it. -/
theorem scatter_window_apply (x : (⟨2, ![R, C]⟩ : Shape).Idx → α) (upd : (⟨2, ![h, w]⟩ : Shape).Idx → α) (k : Fin R) (n : Fin C) :
    Host.scatter (winDims R C h w wf) (fun _ b => b) x idx upd (ix2 k n)
      = if hin : (r0 ≤ k.val ∧ k.val < r0 + h) ∧ (c0 ≤ n.val ∧ n.val < c0 + w) then
          upd (ix2 (⟨k.val - r0, by omega⟩ : Fin h) (⟨n.val - c0, by omega⟩ : Fin w))
        else x (ix2 k n) := by
  by_cases hin : (r0 ≤ k.val ∧ k.val < r0 + h) ∧ (c0 ≤ n.val ∧ n.val < c0 + w)
  · rw [dif_pos hin]
    refine Cert.LibScatterSet.scatter_set_hit_of_injective (winDims R C h w wf) x idx upd
      (fun j j' i e e' => resultIdx?_inj wf idx hr hc hR hC j j' i e e') ?_
    rw [resultIdx?_eq wf idx hr hc hR hC]
    refine congrArg some ?_
    funext a
    match a with
    | ⟨0, _⟩ => exact Fin.ext (show r0 + (k.val - r0) = k.val by omega)
    | ⟨1, _⟩ => exact Fin.ext (show c0 + (n.val - c0) = n.val by omega)
  · rw [dif_neg hin]
    refine Cert.LibScatterSet.scatter_set_miss (winDims R C h w wf) x idx upd (fun j e => hin ?_)
    rw [resultIdx?_eq wf idx hr hc hR hC j] at e
    have ee := Option.some.inj e
    have e0 := congrArg Fin.val (congrFun ee (0 : Fin 2))
    have e1 := congrArg Fin.val (congrFun ee (1 : Fin 2))
    change r0 + (j 0).val = k.val at e0
    change c0 + (j 1).val = n.val at e1
    have h0 := idx2_lt0 j
    have h1 := idx2_lt1 j
    omega

end Landing

end Cert.LibWindowSet
-- ==== Proof.KernelWGroups.lean ====
/-
  One block written into a 200×648 matrix at several corners in arithmetic progression, read at one entry.

  A block U of h rows and 81 columns (h one of 1, 5, 9) is written, by one window write after another, at the corners
  (r0 + h·c, 81·c) for c = 0, 1, …, t − 1: the windows are the block's copies down a staircase, one per 81-column
  strip. Column n lies in strip n / 81 only, so entry (k, n) of the result is the block's entry
  (k − (r0 + h·(n / 81)), n mod 81) when that strip's copy has been written (n / 81 < t) and row k lies in it, and
  the entry of the matrix written into otherwise. The proof is an induction on the number of copies written, each
  step one window write.
-/
import proofs.«176551_j26628797235368_2_alg».proof.Proof.LibWindowSet

namespace Cert.KernelIdeal.WValue

open Idealize.ShloMosaic Idealize.ShloMosaic.ValueIdx Cert.LibWindowSet

variable {α : Type} {h : Nat}

/-- The matrix `x` after the block `U` has been written at the corners `ivs 0`, …, `ivs (t − 1)`, in this order. -/
def grp (wf : ScatterDims.WF ⟨2, ![200, 648]⟩ ⟨1, ![2]⟩ ⟨2, ![h, 81]⟩ [0, 1] [] [0, 1] 0)
    (U : (⟨2, ![h, 81]⟩ : Shape).Idx → α) (ivs : Nat → IVec ⟨1, ![2]⟩ 32) :
    Nat → ((⟨2, ![200, 648]⟩ : Shape).Idx → α) → (⟨2, ![200, 648]⟩ : Shape).Idx → α
  | 0, x => x
  | t + 1, x => Host.scatter (winDims 200 648 h 81 wf) (fun _ b => b) (grp wf U ivs t x) (ivs t) U

/-- THE STAIRCASE READ AT (k, n). -/
theorem grp_apply (hh : h = 1 ∨ h = 5 ∨ h = 9)
    (wf : ScatterDims.WF ⟨2, ![200, 648]⟩ ⟨1, ![2]⟩ ⟨2, ![h, 81]⟩ [0, 1] [] [0, 1] 0)
    (U : (⟨2, ![h, 81]⟩ : Shape).Idx → α) (ivs : Nat → IVec ⟨1, ![2]⟩ 32) (r0 : Nat) (hr0 : r0 + h * 8 ≤ 200)
    (hiv : ∀ t, t < 8 → ((ivs t) (ix1 (0 : Fin 2))).toInt = ((r0 + h * t : Nat) : Int)
      ∧ ((ivs t) (ix1 (1 : Fin 2))).toInt = ((81 * t : Nat) : Int))
    (t : Nat) (ht : t ≤ 8) (x : (⟨2, ![200, 648]⟩ : Shape).Idx → α) (k : Fin 200) (n : Fin 648) :
    grp wf U ivs t x (ix2 k n)
      = if hin : n.val / 81 < t ∧ r0 + h * (n.val / 81) ≤ k.val ∧ k.val < r0 + h * (n.val / 81) + h then
          U (ix2 (⟨k.val - (r0 + h * (n.val / 81)), by have := hin.2.1; have := hin.2.2; omega⟩ : Fin h)
            (⟨n.val % 81, Nat.mod_lt _ (by decide)⟩ : Fin 81))
        else x (ix2 k n) := by
  rcases hh with rfl | rfl | rfl
  · induction t with
    | zero => rw [dif_neg (by omega)]; rfl
    | succ t ih =>
      have ih' := ih (by omega)
      obtain ⟨e0, e1⟩ := hiv t (by omega)
      show Host.scatter (winDims 200 648 1 81 wf) (fun _ b => b) (grp wf U ivs t x) (ivs t) U (ix2 k n) = _
      rw [scatter_window_apply wf (ivs t) e0 e1 (by omega) (by omega)]
      by_cases hw : (r0 + 1 * t ≤ k.val ∧ k.val < r0 + 1 * t + 1) ∧ (81 * t ≤ n.val ∧ n.val < 81 * t + 81)
      · rw [dif_pos hw, dif_pos (by omega)]
        refine congrArg U ?_
        funext a
        match a with
        | ⟨0, _⟩ => exact Fin.ext (by simp only []; omega)
        | ⟨1, _⟩ => exact Fin.ext (by simp only []; omega)
      · rw [dif_neg hw, ih']
        by_cases hc : n.val / 81 < t ∧ r0 + 1 * (n.val / 81) ≤ k.val ∧ k.val < r0 + 1 * (n.val / 81) + 1
        · rw [dif_pos hc, dif_pos (by omega)]
        · rw [dif_neg hc, dif_neg (by omega)]
  · induction t with
    | zero => rw [dif_neg (by omega)]; rfl
    | succ t ih =>
      have ih' := ih (by omega)
      obtain ⟨e0, e1⟩ := hiv t (by omega)
      show Host.scatter (winDims 200 648 5 81 wf) (fun _ b => b) (grp wf U ivs t x) (ivs t) U (ix2 k n) = _
      rw [scatter_window_apply wf (ivs t) e0 e1 (by omega) (by omega)]
      by_cases hw : (r0 + 5 * t ≤ k.val ∧ k.val < r0 + 5 * t + 5) ∧ (81 * t ≤ n.val ∧ n.val < 81 * t + 81)
      · rw [dif_pos hw, dif_pos (by omega)]
        refine congrArg U ?_
        funext a
        match a with
        | ⟨0, _⟩ => exact Fin.ext (by simp only []; omega)
        | ⟨1, _⟩ => exact Fin.ext (by simp only []; omega)
      · rw [dif_neg hw, ih']
        by_cases hc : n.val / 81 < t ∧ r0 + 5 * (n.val / 81) ≤ k.val ∧ k.val < r0 + 5 * (n.val / 81) + 5
        · rw [dif_pos hc, dif_pos (by omega)]
        · rw [dif_neg hc, dif_neg (by omega)]
  · induction t with
    | zero => rw [dif_neg (by omega)]; rfl
    | succ t ih =>
      have ih' := ih (by omega)
      obtain ⟨e0, e1⟩ := hiv t (by omega)
      show Host.scatter (winDims 200 648 9 81 wf) (fun _ b => b) (grp wf U ivs t x) (ivs t) U (ix2 k n) = _
      rw [scatter_window_apply wf (ivs t) e0 e1 (by omega) (by omega)]
      by_cases hw : (r0 + 9 * t ≤ k.val ∧ k.val < r0 + 9 * t + 9) ∧ (81 * t ≤ n.val ∧ n.val < 81 * t + 81)
      · rw [dif_pos hw, dif_pos (by omega)]
        refine congrArg U ?_
        funext a
        match a with
        | ⟨0, _⟩ => exact Fin.ext (by simp only []; omega)
        | ⟨1, _⟩ => exact Fin.ext (by simp only []; omega)
      · rw [dif_neg hw, ih']
        by_cases hc : n.val / 81 < t ∧ r0 + 9 * (n.val / 81) ≤ k.val ∧ k.val < r0 + 9 * (n.val / 81) + 9
        · rw [dif_pos hc, dif_pos (by omega)]
        · rw [dif_neg hc, dif_neg (by omega)]

end Cert.KernelIdeal.WValue
-- ==== Proof.KernelW.lean ====
/-
  The 200×648 matrix the program builds on the host before its one call, read at one entry.

  The program starts from zeros and writes 24 windows, one window write each: for every channel c = 0 … 7 the
  degree-0 block (1×81) at corner (c, 81c), then for every channel the degree-2 block (5×81) at (32 + 5c, 81c),
  then for every channel the degree-4 block (9×81) at (128 + 9c, 81c); the result changes float format, which on
  the extended reals is the identity. Each group of eight writes is a staircase of copies of one block, one copy
  per 81-column strip, so column n meets at most one copy per group, and the three groups' rows are disjoint
  ([0, 8), [32, 72), [128, 200)): entry (k, n) is the entry of the one copy that covers it, or zero. That is the
  specification's matrix entry.
-/
import proofs.«176551_j26628797235368_2_alg».proof.Proof.Gen.KernelIdeal.Frame
import proofs.«176551_j26628797235368_2_alg».proof.Proof.Spec
import proofs.«176551_j26628797235368_2_alg».proof.Proof.KernelWBlocks
import proofs.«176551_j26628797235368_2_alg».proof.Proof.KernelWGroups

set_option maxRecDepth 16384

noncomputable section

namespace Cert.KernelIdeal.WValue

open Idealize.ShloMosaic Idealize.ShloMosaic.TcCoe Idealize.ShloMosaic.ValueIdx Cert.LibWindowSet
open Facts₀ Facts

/-- Two one-entry integer vectors joined into the two-entry vector a window write takes as its corner. -/
def ivec2 (a b : IVec S1 32) : IVec S2 32 :=
  concatenate S2 0 [⟨S1, a⟩, ⟨S1, b⟩] concatenates_S1_S1_S2_d0

/-- The program's joins of two one-entry vectors, whatever witness of the shapes' fit they carry. -/
theorem concat2_eq (a b : IVec S1 32)
    (h : Shape.Concatenates ([(⟨S1, a⟩ : (s : Shape) × (s.Idx → BitVec 32)), ⟨S1, b⟩].map (·.1)) S2 0) :
    concatenate S2 0 [⟨S1, a⟩, ⟨S1, b⟩] h = ivec2 a b := rfl

/-- The corner (r, c) as the program builds it: each integer broadcast to a one-entry vector, the two joined. -/
def iv (r c : BitVec 32) : IVec S2 32 :=
  ivec2 (broadcastInDim S1 ![] bcast_S_S1 (constantI S_ 32 r)) (broadcastInDim S1 ![] bcast_S_S1 (constantI S_ 32 c))

/-- The corner's first entry is the row. -/
theorem iv_row (r c : BitVec 32) : iv r c (ix1 (0 : Fin 2)) = r := rfl
/-- The corner's second entry is the column. -/
theorem iv_col (r c : BitVec 32) : iv r c (ix1 (1 : Fin 2)) = c := rfl

/-- The matrix of zeros the writes start from. -/
def zeroM : S200x648.Idx → EReal :=
  broadcastInDim S200x648 ![] bcast_S_S200x648 (constant (F := Ideal) S_ .f32 0x00000000#32)

theorem zeroM_apply (i : S200x648.Idx) : zeroM i = 0 := Ideal.ofBits_zero_f32

/-- The 24 window writes in the program's order, over the matrix `Z` they start from and the three blocks. -/
def chainT (Z : S200x648.Idx → EReal) (U0 : S1x81.Idx → EReal) (U2 : S5x81.Idx → EReal) (U4 : S9x81.Idx → EReal) :
    S200x648.Idx → EReal :=
  (Host.scatter scatter_S200x648_S2_S9x81_01_n_01_0 (fun _ b => b) (Host.scatter scatter_S200x648_S2_S9x81_01_n_01_0 (fun _ b => b) (Host.scatter scatter_S200x648_S2_S9x81_01_n_01_0 (fun _ b => b) (Host.scatter scatter_S200x648_S2_S9x81_01_n_01_0 (fun _ b => b) (Host.scatter scatter_S200x648_S2_S9x81_01_n_01_0 (fun _ b => b) (Host.scatter scatter_S200x648_S2_S9x81_01_n_01_0 (fun _ b => b) (Host.scatter scatter_S200x648_S2_S9x81_01_n_01_0 (fun _ b => b) (Host.scatter scatter_S200x648_S2_S9x81_01_n_01_0 (fun _ b => b) (Host.scatter scatter_S200x648_S2_S5x81_01_n_01_0 (fun _ b => b) (Host.scatter scatter_S200x648_S2_S5x81_01_n_01_0 (fun _ b => b) (Host.scatter scatter_S200x648_S2_S5x81_01_n_01_0 (fun _ b => b) (Host.scatter scatter_S200x648_S2_S5x81_01_n_01_0 (fun _ b => b) (Host.scatter scatter_S200x648_S2_S5x81_01_n_01_0 (fun _ b => b) (Host.scatter scatter_S200x648_S2_S5x81_01_n_01_0 (fun _ b => b) (Host.scatter scatter_S200x648_S2_S5x81_01_n_01_0 (fun _ b => b) (Host.scatter scatter_S200x648_S2_S5x81_01_n_01_0 (fun _ b => b) (Host.scatter scatter_S200x648_S2_S1x81_01_n_01_0 (fun _ b => b) (Host.scatter scatter_S200x648_S2_S1x81_01_n_01_0 (fun _ b => b) (Host.scatter scatter_S200x648_S2_S1x81_01_n_01_0 (fun _ b => b) (Host.scatter scatter_S200x648_S2_S1x81_01_n_01_0 (fun _ b => b) (Host.scatter scatter_S200x648_S2_S1x81_01_n_01_0 (fun _ b => b) (Host.scatter scatter_S200x648_S2_S1x81_01_n_01_0 (fun _ b => b) (Host.scatter scatter_S200x648_S2_S1x81_01_n_01_0 (fun _ b => b) (Host.scatter scatter_S200x648_S2_S1x81_01_n_01_0 (fun _ b => b) Z (iv 0#32 0#32) U0) (iv 1#32 81#32) U0) (iv 2#32 162#32) U0) (iv 3#32 243#32) U0) (iv 4#32 324#32) U0) (iv 5#32 405#32) U0) (iv 6#32 486#32) U0) (iv 7#32 567#32) U0) (iv 32#32 0#32) U2) (iv 37#32 81#32) U2) (iv 42#32 162#32) U2) (iv 47#32 243#32) U2) (iv 52#32 324#32) U2) (iv 57#32 405#32) U2) (iv 62#32 486#32) U2) (iv 67#32 567#32) U2) (iv 128#32 0#32) U4) (iv 137#32 81#32) U4) (iv 146#32 162#32) U4) (iv 155#32 243#32) U4) (iv 164#32 324#32) U4) (iv 173#32 405#32) U4) (iv 182#32 486#32) U4) (iv 191#32 567#32) U4)

/-- The corners of the degree-0 copies. -/
def ivs0 (t : Nat) : IVec S2 32 := iv (BitVec.ofNat 32 (0 + 1 * t)) (BitVec.ofNat 32 (81 * t))
/-- The corners of the degree-2 copies. -/
def ivs2 (t : Nat) : IVec S2 32 := iv (BitVec.ofNat 32 (32 + 5 * t)) (BitVec.ofNat 32 (81 * t))
/-- The corners of the degree-4 copies. -/
def ivs4 (t : Nat) : IVec S2 32 := iv (BitVec.ofNat 32 (128 + 9 * t)) (BitVec.ofNat 32 (81 * t))

theorem hiv0 : ∀ t, t < 8 → ((ivs0 t) (ix1 (0 : Fin 2))).toInt = ((0 + 1 * t : Nat) : Int)
    ∧ ((ivs0 t) (ix1 (1 : Fin 2))).toInt = ((81 * t : Nat) : Int) := by
  intro t ht
  unfold ivs0
  rw [iv_row, iv_col]
  interval_cases t <;> exact ⟨by decide, by decide⟩
theorem hiv2 : ∀ t, t < 8 → ((ivs2 t) (ix1 (0 : Fin 2))).toInt = ((32 + 5 * t : Nat) : Int)
    ∧ ((ivs2 t) (ix1 (1 : Fin 2))).toInt = ((81 * t : Nat) : Int) := by
  intro t ht
  unfold ivs2
  rw [iv_row, iv_col]
  interval_cases t <;> exact ⟨by decide, by decide⟩
theorem hiv4 : ∀ t, t < 8 → ((ivs4 t) (ix1 (0 : Fin 2))).toInt = ((128 + 9 * t : Nat) : Int)
    ∧ ((ivs4 t) (ix1 (1 : Fin 2))).toInt = ((81 * t : Nat) : Int) := by
  intro t ht
  unfold ivs4
  rw [iv_row, iv_col]
  interval_cases t <;> exact ⟨by decide, by decide⟩

/-- The 24 writes are three staircases, one after the other. -/
theorem chainT_eq (Z : S200x648.Idx → EReal) (U0 : S1x81.Idx → EReal) (U2 : S5x81.Idx → EReal) (U4 : S9x81.Idx → EReal) :
    chainT Z U0 U2 U4
      = grp scatter_S200x648_S2_S9x81_01_n_01_0_wf U4 ivs4 8
          (grp scatter_S200x648_S2_S5x81_01_n_01_0_wf U2 ivs2 8
            (grp scatter_S200x648_S2_S1x81_01_n_01_0_wf U0 ivs0 8 Z)) := rfl

/-- THE THREE STAIRCASES OVER ZEROS, READ AT (k, n): the specification's matrix entry. -/
theorem chain_apply (V4 : S15x9.Idx → EReal) (V2 : S15x5.Idx → EReal) (V0 : S15x1.Idx → EReal) (k : Fin 200) (n : Fin 648) :
    grp scatter_S200x648_S2_S9x81_01_n_01_0_wf (blk4 V4) ivs4 8
        (grp scatter_S200x648_S2_S5x81_01_n_01_0_wf (blk2 V2) ivs2 8
          (grp scatter_S200x648_S2_S1x81_01_n_01_0_wf (blk0 V0) ivs0 8 zeroM)) (ix2 k n)
      = Cert.Spec.wEntry dm cf V4 V2 V0 k n := by
  have hn : n.val < 648 := n.isLt
  have hk : k.val < 200 := k.isLt
  rw [grp_apply (Or.inr (Or.inr rfl)) scatter_S200x648_S2_S9x81_01_n_01_0_wf (blk4 V4) ivs4 128 (by decide) hiv4 8 (le_refl 8)]
  by_cases h4 : n.val / 81 < 8 ∧ 128 + 9 * (n.val / 81) ≤ k.val ∧ k.val < 128 + 9 * (n.val / 81) + 9
  · rw [dif_pos h4, blk4_apply]
    unfold Cert.Spec.wEntry
    rw [if_neg (by omega), dif_neg (by omega), dif_pos (by omega), if_pos (by omega)]
    have eB : k.val - (128 + 9 * (n.val / 81)) = (k.val - 128) % 9 := by omega
    simp only [eB]
    rfl
  rw [dif_neg h4,
    grp_apply (Or.inr (Or.inl rfl)) scatter_S200x648_S2_S5x81_01_n_01_0_wf (blk2 V2) ivs2 32 (by decide) hiv2 8 (le_refl 8)]
  by_cases h2 : n.val / 81 < 8 ∧ 32 + 5 * (n.val / 81) ≤ k.val ∧ k.val < 32 + 5 * (n.val / 81) + 5
  · rw [dif_pos h2, blk2_apply]
    unfold Cert.Spec.wEntry
    rw [if_neg (by omega), dif_pos (by omega), if_pos (by omega)]
    have eB : k.val - (32 + 5 * (n.val / 81)) = (k.val - 32) % 5 := by omega
    simp only [eB]
    rfl
  rw [dif_neg h2,
    grp_apply (Or.inl rfl) scatter_S200x648_S2_S1x81_01_n_01_0_wf (blk0 V0) ivs0 0 (by decide) hiv0 8 (le_refl 8)]
  by_cases h0 : n.val / 81 < 8 ∧ 0 + 1 * (n.val / 81) ≤ k.val ∧ k.val < 0 + 1 * (n.val / 81) + 1
  · rw [dif_pos h0, blk0_apply]
    unfold Cert.Spec.wEntry
    rw [if_pos (by omega), if_pos (by omega)]
    rfl
  rw [dif_neg h0, zeroM_apply]
  unfold Cert.Spec.wEntry
  split_ifs <;> first | rfl | (exfalso; omega)

variable (m : (ℓ : Loc nD τ sig) → Buf (Elt Ideal) ℓ) (c : Dev nD)

set_option maxHeartbeats 8000000 in
/-- The matrix the call finds, as the 24 writes over zeros and the three blocks of the launched coefficient tables. -/
theorem V129_eq : @Eq (S200x648.Idx → EReal) (Gen.V m c main_v129)
    (truncf (F := Ideal) .bf16
      (chainT zeroM (blk0 (m ((c.tc : Thread nD τ).loc main_arg3))) (blk2 (m ((c.tc : Thread nD τ).loc main_arg2)))
        (blk4 (m ((c.tc : Thread nD τ).loc main_arg1))) : FVec Ideal S200x648 .f32) bitsLt_bf16_f32) := by
  dsimp only [Gen.V, Gen.V0]
  simp only [Gen.hostOps0, List.flatten_cons, List.flatten_nil, List.append_nil, List.cons_append, List.nil_append]
  simp (disch := decide) only [StableHlo.after_cons, StableHlo.after_nil,
      StableHlo.nullary_result', StableHlo.unary_result', StableHlo.binary_result', StableHlo.ternary_result',
      StableHlo.nullary_result_ne', StableHlo.unary_result_ne', StableHlo.binary_result_ne', StableHlo.ternary_result_ne', concat2_eq, chainT, iv, zeroM, blk0, blk2, blk4, rowIdx, multCol] <;> rfl

/-- THE MATRIX THE CALL FINDS, READ AT (k, n): the specification's matrix entry over the launched coefficient tables. -/
theorem W_apply (k : Fin 200) (n : Fin 648) :
    (Gen.V m c main_v129 : S200x648.Idx → EReal) (ix2 k n)
      = Cert.Spec.wEntry dm cf (m ((c.tc : Thread nD τ).loc main_arg1)) (m ((c.tc : Thread nD τ).loc main_arg2))
          (m ((c.tc : Thread nD τ).loc main_arg3)) k n := by
  rw [V129_eq m c]
  show chainT zeroM (blk0 (m ((c.tc : Thread nD τ).loc main_arg3))) (blk2 (m ((c.tc : Thread nD τ).loc main_arg2)))
    (blk4 (m ((c.tc : Thread nD τ).loc main_arg1))) (ix2 k n) = _
  rw [chainT_eq]
  exact chain_apply _ _ _ k n

end Cert.KernelIdeal.WValue
-- ==== Proof.SumLaw.lean ====
/-
  The sum law: a row of x against column n of the 200×648 matrix is the specification's entry (b, chan n, pos n).

  Everything here is arithmetic on the extended reals. Dividing by a multiplicity cf j ≠ 0 is multiplying by
  r = (cf j)⁻¹; r is nonnegative and not ⊤, so multiplying by r distributes over every finite sum, infinite terms
  included. Column n of the matrix is zero outside the fifteen rows that belong to channel chan n (one row of the
  degree-0 block, five of the degree-2 block, nine of the degree-4 block), so the sum over the 200 rows is the sum
  over those fifteen, and on them the entry is V_l[dm (pos n), m] · r.
-/
import proofs.«176551_j26628797235368_2_alg».proof.Proof.Spec

noncomputable section

namespace Cert.Spec

open Idealize.ShloMosaic Idealize.ShloMosaic.ValueIdx

/-- Multiplying by a nonnegative extended real other than ⊤ distributes over a finite sum. -/
theorem sum_mul_of_nonneg_of_ne_top {ι : Type} (s : Finset ι) (f : ι → EReal) (r : EReal)
    (h0 : 0 ≤ r) (ht : r ≠ ⊤) : (∑ i ∈ s, f i) * r = ∑ i ∈ s, f i * r := by
  classical
  induction s using Finset.induction_on with
  | empty => simp
  | insert a s ha ih =>
    rw [Finset.sum_insert ha, Finset.sum_insert ha, EReal.right_distrib_of_nonneg_of_ne_top h0 ht, ih]

/-- Dividing by a divisor other than zero is multiplying by its inverse. -/
theorem div_eq_mul_inv_of_ne_zero (u v : EReal) (hv : v ≠ 0) : Ideal.div u v = u * v⁻¹ := by
  unfold Ideal.div
  rw [if_neg hv]

theorem col4_injective (c : Fin 8) : Function.Injective (col4 c) := by
  intro m m' h
  have h' := congrArg Fin.val h
  simp only [col4] at h'
  exact Fin.ext (by omega)

theorem col2_injective (c : Fin 8) : Function.Injective (col2 c) := by
  intro m m' h
  have h' := congrArg Fin.val h
  simp only [col2] at h'
  exact Fin.ext (by omega)

theorem col0_injective (c : Fin 8) : Function.Injective (col0 c) := by
  intro m m' h
  have h' := congrArg Fin.val h
  simp only [col0] at h'
  exact Fin.ext (by omega)

theorem col4_ne_col2 (c : Fin 8) (m : Fin 9) (m' : Fin 5) : col4 c m ≠ col2 c m' := by
  intro h
  have h' := congrArg Fin.val h
  simp only [col4, col2] at h'
  omega

theorem col4_ne_col0 (c : Fin 8) (m : Fin 9) (m' : Fin 1) : col4 c m ≠ col0 c m' := by
  intro h
  have h' := congrArg Fin.val h
  simp only [col4, col0] at h'
  omega

theorem col2_ne_col0 (c : Fin 8) (m : Fin 5) (m' : Fin 1) : col2 c m ≠ col0 c m' := by
  intro h
  have h' := congrArg Fin.val h
  simp only [col2, col0] at h'
  omega

/-- A sum over the 200 rows whose terms vanish off channel c's fifteen rows is the sum over those rows, block by block. -/
theorem sum_blocks (c : Fin 8) (f : Fin 200 → EReal)
    (h : ∀ k : Fin 200, (∀ m, k ≠ col4 c m) → (∀ m, k ≠ col2 c m) → (∀ m, k ≠ col0 c m) → f k = 0) :
    ∑ k, f k = ((∑ m, f (col4 c m)) + ∑ m, f (col2 c m)) + ∑ m, f (col0 c m) := by
  classical
  have hsub : ∑ k ∈ (Finset.univ.image (col4 c) ∪ Finset.univ.image (col2 c)) ∪ Finset.univ.image (col0 c), f k
      = ∑ k, f k := by
    apply Finset.sum_subset (Finset.subset_univ _)
    intro k _ hk
    simp only [Finset.mem_union, Finset.mem_image, Finset.mem_univ, true_and, not_or, not_exists] at hk
    exact h k (fun m e => hk.1.1 m e.symm) (fun m e => hk.1.2 m e.symm) (fun m e => hk.2 m e.symm)
  have d1 : Disjoint (Finset.univ.image (col4 c)) (Finset.univ.image (col2 c)) := by
    rw [Finset.disjoint_left]
    intro k hk hk'
    simp only [Finset.mem_image, Finset.mem_univ, true_and] at hk hk'
    obtain ⟨m, rfl⟩ := hk
    obtain ⟨m', e⟩ := hk'
    exact col4_ne_col2 c m m' e.symm
  have d2 : Disjoint (Finset.univ.image (col4 c) ∪ Finset.univ.image (col2 c)) (Finset.univ.image (col0 c)) := by
    rw [Finset.disjoint_left]
    intro k hk hk'
    simp only [Finset.mem_union, Finset.mem_image, Finset.mem_univ, true_and] at hk hk'
    obtain ⟨m', e⟩ := hk'
    rcases hk with ⟨m, rfl⟩ | ⟨m, rfl⟩
    · exact col4_ne_col0 c m m' e.symm
    · exact col2_ne_col0 c m m' e.symm
  rw [← hsub, Finset.sum_union d2, Finset.sum_union d1,
    Finset.sum_image (fun a _ a' _ e => col4_injective c e),
    Finset.sum_image (fun a _ a' _ e => col2_injective c e),
    Finset.sum_image (fun a _ a' _ e => col0_injective c e)]

variable (dm : Fin 81 → Fin 15) (cf : Fin 81 → EReal)
  (x : SX.Idx → EReal) (V4 : SV4.Idx → EReal) (V2 : SV2.Idx → EReal) (V0 : SV0.Idx → EReal)

/-- Off the fifteen rows of column n's channel the matrix entry is zero. -/
theorem wEntry_eq_zero (k : Fin 200) (n : Fin 648)
    (h4 : ∀ m : Fin 9, k ≠ col4 (chan n) m) (h2 : ∀ m : Fin 5, k ≠ col2 (chan n) m)
    (h0 : ∀ m : Fin 1, k ≠ col0 (chan n) m) :
    wEntry dm cf V4 V2 V0 k n = 0 := by
  unfold wEntry
  by_cases hk0 : k.val < 8
  · rw [if_pos hk0]
    by_cases e : k.val = n.val / 81
    · exact absurd (Fin.ext (by simp only [col0, chan, Fin.val_zero]; omega)) (h0 0)
    · rw [if_neg e]
  · rw [if_neg hk0]
    by_cases hk2 : 32 ≤ k.val ∧ k.val < 72
    · rw [dif_pos hk2]
      by_cases e : (k.val - 32) / 5 = n.val / 81
      · exact absurd (Fin.ext (by simp only [col2, chan]; omega))
          (h2 ⟨(k.val - 32) % 5, Nat.mod_lt _ (by decide)⟩)
      · rw [if_neg e]
    · rw [dif_neg hk2]
      by_cases hk4 : 128 ≤ k.val
      · rw [dif_pos hk4]
        by_cases e : (k.val - 128) / 9 = n.val / 81
        · exact absurd (Fin.ext (by simp only [col4, chan]; omega))
            (h4 ⟨(k.val - 128) % 9, Nat.mod_lt _ (by decide)⟩)
        · rw [if_neg e]
      · rw [dif_neg hk4]

/-- The matrix entry on row m of the channel's degree-4 block. -/
theorem wEntry_col4 (n : Fin 648) (m : Fin 9) :
    wEntry dm cf V4 V2 V0 (col4 (chan n) m) n = Ideal.div (V4 (ix2 (dm (pos n)) m)) (cf (pos n)) := by
  have hv : (col4 (chan n) m).val = 128 + 9 * (n.val / 81) + m.val := rfl
  have h1 : ¬ (col4 (chan n) m).val < 8 := by omega
  have h2 : ¬ (32 ≤ (col4 (chan n) m).val ∧ (col4 (chan n) m).val < 72) := by omega
  have h4 : 128 ≤ (col4 (chan n) m).val := by omega
  have h5 : ((col4 (chan n) m).val - 128) / 9 = n.val / 81 := by omega
  have h6 : (⟨((col4 (chan n) m).val - 128) % 9, Nat.mod_lt _ (by decide)⟩ : Fin 9) = m :=
    Fin.ext (by show ((col4 (chan n) m).val - 128) % 9 = m.val; omega)
  unfold wEntry
  rw [if_neg h1, dif_neg h2, dif_pos h4, if_pos h5, h6]

/-- The matrix entry on row m of the channel's degree-2 block. -/
theorem wEntry_col2 (n : Fin 648) (m : Fin 5) :
    wEntry dm cf V4 V2 V0 (col2 (chan n) m) n = Ideal.div (V2 (ix2 (dm (pos n)) m)) (cf (pos n)) := by
  have hv : (col2 (chan n) m).val = 32 + 5 * (n.val / 81) + m.val := rfl
  have hn : n.val / 81 < 8 := by omega
  have h1 : ¬ (col2 (chan n) m).val < 8 := by omega
  have h2 : 32 ≤ (col2 (chan n) m).val ∧ (col2 (chan n) m).val < 72 := by omega
  have h5 : ((col2 (chan n) m).val - 32) / 5 = n.val / 81 := by omega
  have h6 : (⟨((col2 (chan n) m).val - 32) % 5, Nat.mod_lt _ (by decide)⟩ : Fin 5) = m :=
    Fin.ext (by show ((col2 (chan n) m).val - 32) % 5 = m.val; omega)
  unfold wEntry
  rw [if_neg h1, dif_pos h2, if_pos h5, h6]

/-- The matrix entry on the channel's degree-0 row. -/
theorem wEntry_col0 (n : Fin 648) (m : Fin 1) :
    wEntry dm cf V4 V2 V0 (col0 (chan n) m) n = Ideal.div (V0 (ix2 (dm (pos n)) m)) (cf (pos n)) := by
  have hm : m = 0 := Subsingleton.elim _ _
  subst hm
  have hv : (col0 (chan n) (0 : Fin 1)).val = n.val / 81 + 0 := rfl
  have hn : n.val / 81 < 8 := by omega
  have h1 : (col0 (chan n) (0 : Fin 1)).val < 8 := by omega
  have h5 : (col0 (chan n) (0 : Fin 1)).val = n.val / 81 := by omega
  unfold wEntry
  rw [if_pos h1, if_pos h5]

/-- A row of x against column n of the matrix is the specification's entry (b, chan n, pos n). -/
theorem sum_wEntry (hcf0 : ∀ j, cf j ≠ 0) (hnn : ∀ j, 0 ≤ (cf j)⁻¹) (hnt : ∀ j, (cf j)⁻¹ ≠ ⊤)
    (b : Fin 262144) (n : Fin 648) :
    ∑ k : Fin 200, x (ValueIdx.ix2 b k) * wEntry dm cf V4 V2 V0 k n
      = refVal dm cf x V4 V2 V0 b (chan n) (pos n) := by
  have hc := hcf0 (pos n)
  have hr0 := hnn (pos n)
  have hrt := hnt (pos n)
  refine (sum_blocks (chan n) (fun k => x (ValueIdx.ix2 b k) * wEntry dm cf V4 V2 V0 k n) ?_).trans ?_
  · intro k h4 h2 h0
    show x (ValueIdx.ix2 b k) * wEntry dm cf V4 V2 V0 k n = 0
    rw [wEntry_eq_zero dm cf V4 V2 V0 k n h4 h2 h0, mul_zero]
  · show ((∑ m, x (ix2 b (col4 (chan n) m)) * wEntry dm cf V4 V2 V0 (col4 (chan n) m) n)
        + ∑ m, x (ix2 b (col2 (chan n) m)) * wEntry dm cf V4 V2 V0 (col2 (chan n) m) n)
        + ∑ m, x (ix2 b (col0 (chan n) m)) * wEntry dm cf V4 V2 V0 (col0 (chan n) m) n
      = refVal dm cf x V4 V2 V0 b (chan n) (pos n)
    unfold refVal
    rw [div_eq_mul_inv_of_ne_zero _ _ hc, zero_add,
      EReal.right_distrib_of_nonneg_of_ne_top hr0 hrt, EReal.right_distrib_of_nonneg_of_ne_top hr0 hrt,
      sum_mul_of_nonneg_of_ne_top _ _ _ hr0 hrt, sum_mul_of_nonneg_of_ne_top _ _ _ hr0 hrt,
      sum_mul_of_nonneg_of_ne_top _ _ _ hr0 hrt]
    simp only [wEntry_col4, wEntry_col2, wEntry_col0, div_eq_mul_inv_of_ne_zero _ _ hc, mul_assoc]

end Cert.Spec

end
-- ==== Proof.EntryBridge.lean ====
/-
  One entry of the kernel's 262144×648 array against the specification.

  Row b of x against column 81c + j of the 200×648 matrix is a sum over all 200 columns of x; the matrix's column is
  zero outside channel c's three blocks and holds V_l[dm j, m] / cf j inside them, so the sum is the three blocks'
  products, each divided by cf j — and dividing by a positive real distributes over every sum of extended reals, so
  that is the three blocks' products summed and then divided: the specification's entry (b, c, j).
-/
import proofs.«176551_j26628797235368_2_alg».proof.Proof.KernelValue
import proofs.«176551_j26628797235368_2_alg».proof.Proof.SumLaw

noncomputable section

namespace Cert.Bridge

open Idealize.ShloMosaic Idealize.ShloMosaic.ValueIdx Cert.Spec
open Cert.KernelIdeal.RegionValue (rowsByCols)

/-- Entry (b, 81c + j) of the rows-by-columns array, when the second array is the specification's matrix. -/
theorem entry_eq (dm : Fin 81 → Fin 15) (cf : Fin 81 → EReal)
    (hcf : ∀ j, cf j ≠ 0 ∧ 0 ≤ (cf j)⁻¹ ∧ (cf j)⁻¹ ≠ ⊤)
    (xa : SX.Idx → EReal) (wa : (⟨2, ![200, 648]⟩ : Shape).Idx → EReal)
    (V4 : SV4.Idx → EReal) (V2 : SV2.Idx → EReal) (V0 : SV0.Idx → EReal)
    (hW : ∀ (k : Fin 200) (n : Fin 648), wa (ix2 k n) = wEntry dm cf V4 V2 V0 k n)
    (b : Fin 262144) (c : Fin 8) (j : Fin 81) :
    rowsByCols xa wa (ix2 b (colOf c j)) = refVal dm cf xa V4 V2 V0 b c j := by
  have h1 : rowsByCols xa wa (ix2 b (colOf c j)) = ∑ k : Fin 200, xa (ix2 b k) * wa (ix2 k (colOf c j)) := rfl
  rw [h1]
  have h2 : ∀ k : Fin 200, xa (ix2 b k) * wa (ix2 k (colOf c j)) = xa (ix2 b k) * wEntry dm cf V4 V2 V0 k (colOf c j) :=
    fun k => congrArg (xa (ix2 b k) * ·) (hW k (colOf c j))
  rw [Finset.sum_congr rfl fun k _ => h2 k]
  rw [sum_wEntry dm cf xa V4 V2 V0 (fun j => (hcf j).1) (fun j => (hcf j).2.1) (fun j => (hcf j).2.2) b (colOf c j),
    chan_colOf, pos_colOf]

end Cert.Bridge

end
-- ==== Proof.CoefFacts.lean ====
/-
  The four 32-bit float words of the multiplicity table are the numbers 1, 4, 6 and 12.

  Each word is read as sign, exponent and fraction: 0x3F800000 is 2^23 · 2^(127-127-23) = 1, 0x40800000 is
  2^23 · 2^(129-150) = 4, 0x40C00000 is (2^23 + 2^22) · 2^(129-150) = 6, 0x41400000 is (2^23 + 2^22) · 2^(130-150) = 12.
  A positive real is not zero, and its inverse on the extended reals is nonnegative and below ⊤.
-/
import Idealize.ShloMosaic.PureOps.Ideal

namespace Cert.Spec

open Idealize.ShloMosaic

/-- The word 0x3F800000 is the real 1. -/
theorem ofBits_f32_one : Ideal.ofBits .f32 0x3F800000#32 = ((1 : ℝ) : EReal) := by
  simp [Ideal.ofBits, Ideal.ieee, -EReal.coe_mul]; norm_num

/-- The word 0x40800000 is the real 4. -/
theorem ofBits_f32_four : Ideal.ofBits .f32 0x40800000#32 = ((4 : ℝ) : EReal) := by
  simp [Ideal.ofBits, Ideal.ieee, -EReal.coe_mul]; norm_num

/-- The word 0x40C00000 is the real 6. -/
theorem ofBits_f32_six : Ideal.ofBits .f32 0x40C00000#32 = ((6 : ℝ) : EReal) := by
  simp [Ideal.ofBits, Ideal.ieee, -EReal.coe_mul]; norm_num

/-- The word 0x41400000 is the real 12. -/
theorem ofBits_f32_twelve : Ideal.ofBits .f32 0x41400000#32 = ((12 : ℝ) : EReal) := by
  simp [Ideal.ofBits, Ideal.ieee, -EReal.coe_mul]; norm_num

/-- A positive real is not zero on the extended reals, and its inverse there is nonnegative and not ⊤. -/
theorem pos_real_inv_facts (r : ℝ) (hr : 0 < r) :
    ((r : ℝ) : EReal) ≠ 0 ∧ 0 ≤ ((r : ℝ) : EReal)⁻¹ ∧ ((r : ℝ) : EReal)⁻¹ ≠ ⊤ :=
  ⟨EReal.coe_ne_zero.mpr hr.ne', EReal.inv_nonneg_of_nonneg (EReal.coe_nonneg.mpr hr.le),
    (EReal.inv_lt_top _).ne⟩

/-- Each of the four words of the multiplicity table is a number off zero whose inverse is nonnegative and not ⊤. -/
theorem ofBits_mult (w : BitVec 32)
    (h : w = 0x3F800000#32 ∨ w = 0x40800000#32 ∨ w = 0x40C00000#32 ∨ w = 0x41400000#32) :
    Ideal.ofBits .f32 w ≠ 0 ∧ 0 ≤ (Ideal.ofBits .f32 w)⁻¹ ∧ (Ideal.ofBits .f32 w)⁻¹ ≠ ⊤ := by
  rcases h with rfl | rfl | rfl | rfl
  · rw [ofBits_f32_one]; exact pos_real_inv_facts 1 (by norm_num)
  · rw [ofBits_f32_four]; exact pos_real_inv_facts 4 (by norm_num)
  · rw [ofBits_f32_six]; exact pos_real_inv_facts 6 (by norm_num)
  · rw [ofBits_f32_twelve]; exact pos_real_inv_facts 12 (by norm_num)

end Cert.Spec
-- ==== Proof.LibFlat.lean ====
/-
  Recasting arrays of different shapes to one shape.

  A recast keeps row-major order: entry j of the recast array is the entry of the operand at j's row-major position.
  So two arrays of shapes s and s', both recast to a shape t, are equal as soon as they agree wherever an index of s
  and an index of s' have the same row-major position (`shapeCast_eq_of_flat`). For a matrix of 262144 rows and 648
  columns against a cube of extents 262144, 8, 81 the positions b·648 + n and (b'·8 + c)·81 + j coincide exactly
  when b = b' and n = 81c + j, so it is enough that the matrix at (b, 81c + j) is the cube at (b, c, j)
  (`shapeCast_matrix_cube`).
-/
import Idealize.ShloMosaic.Lib.Pipeline.Value
import Idealize.ShloMosaic.Lib.ValueIdx

namespace Cert.LibFlat

open Idealize.ShloMosaic Idealize.ShloMosaic.ValueIdx

/-- Two arrays recast to one shape are equal when they agree at equal row-major positions. -/
theorem shapeCast_eq_of_flat {s s' t : Shape} {α : Type} (x : s.Idx → α) (y : s'.Idx → α)
    (h : s.ShapeCasts t) (h' : s'.ShapeCasts t)
    (hxy : ∀ (k : s.Idx) (k' : s'.Idx), (s.rowMajor k).val = (s'.rowMajor k').val → x k = y k') :
    shapeCast t x h = shapeCast t y h' := by
  funext j
  unfold shapeCast
  exact hxy _ _ ((Shape.rowMajor_reshapeEquiv h j).trans (Shape.rowMajor_reshapeEquiv h' j).symm)

/-- A 262144×648 matrix and a 262144×8×81 cube recast to one shape are equal when the matrix at (b, 81c + j) is the
    cube at (b, c, j). -/
theorem shapeCast_matrix_cube {t : Shape} {α : Type}
    (x : (⟨2, ![262144, 648]⟩ : Shape).Idx → α) (y : (⟨3, ![262144, 8, 81]⟩ : Shape).Idx → α)
    (h : (⟨2, ![262144, 648]⟩ : Shape).ShapeCasts t) (h' : (⟨3, ![262144, 8, 81]⟩ : Shape).ShapeCasts t)
    (hxy : ∀ (b : Fin 262144) (c : Fin 8) (j : Fin 81),
      x (ix2 b ⟨81 * c.val + j.val, by omega⟩) = y (ix3 b c j)) :
    shapeCast t x h = shapeCast t y h' := by
  refine shapeCast_eq_of_flat x y h h' ?_
  intro k k' e
  rw [Shape.rowMajor_val_two, Shape.rowMajor_val_three] at e
  obtain ⟨a, n, rfl⟩ : ∃ (a : Fin 262144) (n : Fin 648), k = ix2 a n := ⟨k 0, k 1, eq_ix2 k⟩
  obtain ⟨b, c, j, rfl⟩ : ∃ (b : Fin 262144) (c : Fin 8) (j : Fin 81), k' = ix3 b c j :=
    ⟨k' 0, k' 1, k' 2, eq_ix3 k'⟩
  have e' : a.val * 648 + n.val = (b.val * 8 + c.val) * 81 + j.val := e
  have hb : a = b := Fin.ext (by omega)
  have hn : n = ⟨81 * c.val + j.val, by omega⟩ := Fin.ext (by show n.val = 81 * c.val + j.val; omega)
  rw [hb, hn]
  exact hxy b c j

end Cert.LibFlat
-- ==== Proof.Tables.lean ====
/-
  The two literal tables of the two programs.

  Each program carries a table of 81 integers (the monomial a Cartesian position belongs to, a number below 15) and a
  table of 81 float words (the position's multiplicity, one of the words of 1, 4, 6 and 12). The two programs' tables
  are the same, entry by entry; every fact here is checked at each of the 81 positions.
-/
import proofs.«176551_j26628797235368_2_alg».proof.KernelIdeal
import proofs.«176551_j26628797235368_2_alg».proof.ReferenceIdeal

namespace Cert.Tables

/-- The two programs hold the same table of monomials. -/
theorem lit0_eq : Cert.KernelIdeal.lit0 = Cert.ReferenceIdeal.lit0 := by
  funext j
  fin_cases j <;> rfl

/-- The two programs hold the same table of multiplicities. -/
theorem lit1_eq : Cert.KernelIdeal.lit1 = Cert.ReferenceIdeal.lit1 := by
  funext j
  fin_cases j <;> rfl

/-- Every multiplicity is the word of 1, 4, 6 or 12. -/
theorem lit1_mult : ∀ j : Fin 81,
    Cert.KernelIdeal.lit1 j = 0x3F800000#32 ∨ Cert.KernelIdeal.lit1 j = 0x40800000#32 ∨
      Cert.KernelIdeal.lit1 j = 0x40C00000#32 ∨ Cert.KernelIdeal.lit1 j = 0x41400000#32 := by
  intro j
  fin_cases j <;>
    first
    | exact Or.inl rfl
    | exact Or.inr (Or.inl rfl)
    | exact Or.inr (Or.inr (Or.inl rfl))
    | exact Or.inr (Or.inr (Or.inr rfl))

/-- Every monomial number is below 15. -/
theorem lit0_lt : ∀ j : Fin 81, (Cert.KernelIdeal.lit0 j).toNat < 15 := by
  intro j
  fin_cases j <;> decide

end Cert.Tables
-- ==== Proof.RefIndex.lean ====
/-
  Three host operations read at an index, at the shapes this reference uses them.

  A product of a stack of rows [B, C, K] with a table [R, K], contracting the last axis of each, read at (b, c, r), is
  the sum over the contracted coordinate m of A[b, c, m] · V[r, m]. A gather along the last axis of [B, C, R] by a
  column [J, 1] of start indices, read at (b, c, j), is the operand at (b, c, row), the row being the j-th start index
  read signed and clamped into 0 … R − 1. A slice of columns of a matrix followed by the split of the columns into
  C blocks of K reads, at (b, c, m), the matrix at column offset + K·c + m.
-/
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx

/-- The product of rows [B, C, K] with a table [R, K] over the last axis of each, at (b, c, r). -/
theorem dot_rows_apply {B C K R : Nat} {φ₁ φ₂ : FTy}
    (w : DotDims.WF ⟨3, ![B, C, K]⟩ ⟨2, ![R, K]⟩ ⟨3, ![B, C, R]⟩ [2] [1] [0, 1] [0] [] [])
    (prec : Option ContractPrecision) (A : FVec Ideal ⟨3, ![B, C, K]⟩ φ₁) (V : FVec Ideal ⟨2, ![R, K]⟩ φ₂)
    (b : Fin B) (c : Fin C) (r : Fin R) :
    Host.dotGeneral (⟨[2], [1], [0, 1], [0], [], [], w⟩ : DotDims _ _ _) prec A V (ix3 b c r)
      = ∑ m : Fin K, A (ix3 b c m) * V (ix2 r m) := by
  show FloatOps.dotGeneral _ prec _ A V (ix3 b c r) = _
  rw [Ideal.dotGeneral_apply,
    ← Equiv.sum_comp (contrEquiv1 (⟨[2], [1], [0, 1], [0], [], [], w⟩ : DotDims _ _ _) K rfl rfl).symm]
  refine Finset.sum_congr rfl fun m _ => ?_
  have c3 := contrEquiv1_symm_val
    (⟨[2], [1], [0, 1], [0], [], [], w⟩ : DotDims ⟨3, ![B, C, K]⟩ ⟨2, ![R, K]⟩ ⟨3, ![B, C, R]⟩) K rfl rfl m
  have l3 : (⟨[2], [1], [0, 1], [0], [], [], w⟩ : DotDims ⟨3, ![B, C, K]⟩ ⟨2, ![R, K]⟩ ⟨3, ![B, C, R]⟩).lhsIdx (ix3 b c r)
      ((contrEquiv1 _ K rfl rfl).symm m) = ix3 b c m := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, C, K]⟩ ⟨2, ![R, K]⟩ ⟨3, ![B, C, R]⟩).rhsIdx (ix3 b c r)
      ((contrEquiv1 _ K rfl rfl).symm m) = ix2 r m := by
    funext ax; apply Fin.ext
    match ax with
    | ⟨0, _⟩ => simp [DotDims.rhsIdx]; rfl
    | ⟨1, _⟩ => simp [DotDims.rhsIdx]; exact c3
  rw [l3, r3]

end Cert.ReferenceIdeal.RefValue

end
-- ==== Proof.RefGather.lean ====
/-
  A gather along the last axis, read at an index. The operand is [B, C, R]; the start indices are a column [J, 1],
  one scalar per result position j; the result is [B, C, J]. At (b, c, j) the operand index is (b, c) on the two
  offset axes and, on the collapsed axis, the j-th start index read signed and clamped into 0 … R − 1.
-/
import Idealize.ShloMosaic.Lib.ValueIdx

noncomputable section

namespace Cert.ReferenceIdeal.RefValue

open Idealize.ShloMosaic Idealize.ShloMosaic.ValueIdx

/-- The gather along the last axis of [B, C, R] by a column [J, 1] of start indices, at (b, c, j): the operand at
    (b, c, row), the row being the j-th start index read signed and clamped into 0 … R − 1. -/
theorem gather_last_apply {α : Type} {B C R J w : Nat} (hR : 0 < R)
    (wf : GatherDims.WF ⟨3, ![B, C, R]⟩ ⟨2, ![J, 1]⟩ ⟨3, ![B, C, J]⟩ [0, 1] [2] [] [2] [] 1 ![B, C, 1])
    (x : (⟨3, ![B, C, R]⟩ : Shape).Idx → α) (idx : IVec ⟨2, ![J, 1]⟩ w) (b : Fin B) (c : Fin C) (j : Fin J) :
    Host.gather (⟨[0, 1], [2], [], [], [2], 1, ![B, C, 1], wf⟩ : GatherDims ⟨3, ![B, C, R]⟩ ⟨2, ![J, 1]⟩ ⟨3, ![B, C, J]⟩) x idx (ix3 b c j)
      = x (ix3 b c ⟨min (idx (ix2 j (0 : Fin 1))).toInt.toNat (R - 1), by omega⟩) := by
  unfold Host.gather
  congr 1
  funext a
  refine Fin.ext ?_
  show (⟨[0, 1], [2], [], [], [2], 1, ![B, C, 1], wf⟩ : GatherDims ⟨3, ![B, C, R]⟩ ⟨2, ![J, 1]⟩ ⟨3, ![B, C, J]⟩).start (ix3 b c j) idx a + (⟨[0, 1], [2], [], [], [2], 1, ![B, C, 1], wf⟩ : GatherDims ⟨3, ![B, C, R]⟩ ⟨2, ![J, 1]⟩ ⟨3, ![B, C, J]⟩).batchCoord (ix3 b c j) a + (⟨[0, 1], [2], [], [], [2], 1, ![B, C, 1], wf⟩ : GatherDims ⟨3, ![B, C, R]⟩ ⟨2, ![J, 1]⟩ ⟨3, ![B, C, J]⟩).offCoord (ix3 b c j) a = _
  rw [GatherDims.batchCoord_eq_zero _ _ _ List.not_mem_nil, Nat.add_zero]
  match a with
  | ⟨0, h0⟩ =>
    have hn : (⟨0, h0⟩ : Fin (Shape.rank ⟨3, ![B, C, R]⟩)) ∉ (⟨[0, 1], [2], [], [], [2], 1, ![B, C, 1], wf⟩ : GatherDims ⟨3, ![B, C, R]⟩ ⟨2, ![J, 1]⟩ ⟨3, ![B, C, J]⟩).startIndexMap :=
      (by decide : (0 : Fin 3) ∉ ([2] : List (Fin 3)))
    have hk : (⟨0, h0⟩ : Fin (Shape.rank ⟨3, ![B, C, R]⟩)) ∈ (⟨[0, 1], [2], [], [], [2], 1, ![B, C, 1], wf⟩ : GatherDims ⟨3, ![B, C, R]⟩ ⟨2, ![J, 1]⟩ ⟨3, ![B, C, J]⟩).sKept :=
      (by decide : (0 : Fin 3) ∈ ([0, 1] : List (Fin 3)))
    have hs : (⟨[0, 1], [2], [], [], [2], 1, ![B, C, 1], wf⟩ : GatherDims ⟨3, ![B, C, R]⟩ ⟨2, ![J, 1]⟩ ⟨3, ![B, C, J]⟩).start (ix3 b c j) idx ⟨0, h0⟩ = 0 := by
      unfold GatherDims.start; rw [dif_neg hn]
    have ho : (⟨[0, 1], [2], [], [], [2], 1, ![B, C, 1], wf⟩ : GatherDims ⟨3, ![B, C, R]⟩ ⟨2, ![J, 1]⟩ ⟨3, ![B, C, J]⟩).offCoord (ix3 b c j) ⟨0, h0⟩ = b.val := by
      unfold GatherDims.offCoord; rw [dif_pos hk]; rfl
    rw [hs, ho, Nat.zero_add]
  | ⟨1, h1⟩ =>
    have hn : (⟨1, h1⟩ : Fin (Shape.rank ⟨3, ![B, C, R]⟩)) ∉ (⟨[0, 1], [2], [], [], [2], 1, ![B, C, 1], wf⟩ : GatherDims ⟨3, ![B, C, R]⟩ ⟨2, ![J, 1]⟩ ⟨3, ![B, C, J]⟩).startIndexMap :=
      (by decide : (1 : Fin 3) ∉ ([2] : List (Fin 3)))
    have hk : (⟨1, h1⟩ : Fin (Shape.rank ⟨3, ![B, C, R]⟩)) ∈ (⟨[0, 1], [2], [], [], [2], 1, ![B, C, 1], wf⟩ : GatherDims ⟨3, ![B, C, R]⟩ ⟨2, ![J, 1]⟩ ⟨3, ![B, C, J]⟩).sKept :=
      (by decide : (1 : Fin 3) ∈ ([0, 1] : List (Fin 3)))
    have hs : (⟨[0, 1], [2], [], [], [2], 1, ![B, C, 1], wf⟩ : GatherDims ⟨3, ![B, C, R]⟩ ⟨2, ![J, 1]⟩ ⟨3, ![B, C, J]⟩).start (ix3 b c j) idx ⟨1, h1⟩ = 0 := by
      unfold GatherDims.start; rw [dif_neg hn]
    have ho : (⟨[0, 1], [2], [], [], [2], 1, ![B, C, 1], wf⟩ : GatherDims ⟨3, ![B, C, R]⟩ ⟨2, ![J, 1]⟩ ⟨3, ![B, C, J]⟩).offCoord (ix3 b c j) ⟨1, h1⟩ = c.val := by
      unfold GatherDims.offCoord; rw [dif_pos hk]; rfl
    rw [hs, ho, Nat.zero_add]
  | ⟨2, h2⟩ =>
    have hm : (⟨2, h2⟩ : Fin (Shape.rank ⟨3, ![B, C, R]⟩)) ∈ (⟨[0, 1], [2], [], [], [2], 1, ![B, C, 1], wf⟩ : GatherDims ⟨3, ![B, C, R]⟩ ⟨2, ![J, 1]⟩ ⟨3, ![B, C, J]⟩).startIndexMap :=
      (by decide : (2 : Fin 3) ∈ ([2] : List (Fin 3)))
    have hk : (⟨2, h2⟩ : Fin (Shape.rank ⟨3, ![B, C, R]⟩)) ∉ (⟨[0, 1], [2], [], [], [2], 1, ![B, C, 1], wf⟩ : GatherDims ⟨3, ![B, C, R]⟩ ⟨2, ![J, 1]⟩ ⟨3, ![B, C, J]⟩).sKept :=
      (by decide : (2 : Fin 3) ∉ ([0, 1] : List (Fin 3)))
    have ho : (⟨[0, 1], [2], [], [], [2], 1, ![B, C, 1], wf⟩ : GatherDims ⟨3, ![B, C, R]⟩ ⟨2, ![J, 1]⟩ ⟨3, ![B, C, J]⟩).offCoord (ix3 b c j) ⟨2, h2⟩ = 0 := by
      unfold GatherDims.offCoord; rw [dif_neg hk]
    have hsi : (⟨[0, 1], [2], [], [], [2], 1, ![B, C, 1], wf⟩ : GatherDims ⟨3, ![B, C, R]⟩ ⟨2, ![J, 1]⟩ ⟨3, ![B, C, J]⟩).siIdx (ix3 b c j) ⟨List.idxOf (⟨2, h2⟩ : Fin (Shape.rank ⟨3, ![B, C, R]⟩)) (⟨[0, 1], [2], [], [], [2], 1, ![B, C, 1], wf⟩ : GatherDims ⟨3, ![B, C, R]⟩ ⟨2, ![J, 1]⟩ ⟨3, ![B, C, J]⟩).startIndexMap,
        List.idxOf_lt_length_iff.2 hm⟩ = ix2 j (0 : Fin 1) := by
      funext e; refine Fin.ext ?_
      match e with
      | ⟨0, _⟩ => rfl
      | ⟨1, _⟩ => rfl
    rw [ho, Nat.add_zero]
    unfold GatherDims.start
    rw [dif_pos hm, hsi]
    rfl

end Cert.ReferenceIdeal.RefValue

end
-- ==== Proof.RefRead.lean ====
/-
  The reference's result before its last change of shape, read at an index (b, c, j): the quotient of the
  accumulated products' entry in row dm j by cf j, the accumulated products being, from zero, the degree-4, degree-2
  and degree-0 blocks of row b, channel c of x against row dm j of the three coefficient tables. The row is the first
  constant table's entry at j: none of its 81 entries is negative, so the wrap-around keeps it, and all lie in
  0 … 14, so the clamp keeps it too.
-/
import proofs.«176551_j26628797235368_2_alg».proof.Proof.Spec
import proofs.«176551_j26628797235368_2_alg».proof.Proof.RefRun
import proofs.«176551_j26628797235368_2_alg».proof.Proof.RefIndex
import proofs.«176551_j26628797235368_2_alg».proof.Proof.RefGather
import Idealize.ShloMosaic.Lib.IdealHost

noncomputable section

namespace Cert.ReferenceIdeal.RefValue

open Cert.ReferenceIdeal Cert.ReferenceIdeal.Gen Idealize.ShloMosaic Idealize.ShloMosaic.ValueIdx

/-- The degree block cut out of x at columns 128 … and split into 8 channels of 9: at (b, c, m) it is x at the
    block's column for (c, m). -/
theorem block4_apply (x : FVec Ideal S262144x200 .f32) (b : Fin 262144) (c : Fin 8) (m : Fin 9) :
    shapeCast S262144x8x9 (extractStridedSlice S262144x72 ![0, 128] x slices_S262144x200_S262144x72_0_128) shapeCasts_S262144x72_S262144x8x9 (ix3 b c m)
      = x (ix2 b (Cert.Spec.col4 c m)) := by
  refine (shapeCast_apply _ _ (ix3 b c m) (ix2 b (⟨9 * c.val + m.val, by omega⟩ : Fin 72)) ?_).trans ?_
  · rw [Shape.rowMajor_val_two, Shape.rowMajor_val_three]
    show b.val * 72 + (9 * c.val + m.val) = (b.val * 8 + c.val) * 9 + m.val
    omega
  · exact slice2_axis1_apply 128 x _ b _ (Cert.Spec.col4 c m) (by
      show 128 + 9 * c.val + m.val = 128 + (9 * c.val + m.val)
      omega)

/-- The degree block cut out of x at columns 32 … and split into 8 channels of 5: at (b, c, m) it is x at the
    block's column for (c, m). -/
theorem block2_apply (x : FVec Ideal S262144x200 .f32) (b : Fin 262144) (c : Fin 8) (m : Fin 5) :
    shapeCast S262144x8x5 (extractStridedSlice S262144x40 ![0, 32] x slices_S262144x200_S262144x40_0_32) shapeCasts_S262144x40_S262144x8x5 (ix3 b c m)
      = x (ix2 b (Cert.Spec.col2 c m)) := by
  refine (shapeCast_apply _ _ (ix3 b c m) (ix2 b (⟨5 * c.val + m.val, by omega⟩ : Fin 40)) ?_).trans ?_
  · rw [Shape.rowMajor_val_two, Shape.rowMajor_val_three]
    show b.val * 40 + (5 * c.val + m.val) = (b.val * 8 + c.val) * 5 + m.val
    omega
  · exact slice2_axis1_apply 32 x _ b _ (Cert.Spec.col2 c m) (by
      show 32 + 5 * c.val + m.val = 32 + (5 * c.val + m.val)
      omega)

/-- The degree block cut out of x at columns 0 … and split into 8 channels of 1: at (b, c, m) it is x at the
    block's column for (c, m). -/
theorem block0_apply (x : FVec Ideal S262144x200 .f32) (b : Fin 262144) (c : Fin 8) (m : Fin 1) :
    shapeCast S262144x8x1 (extractStridedSlice S262144x8 ![0, 0] x slices_S262144x200_S262144x8_0_0) shapeCasts_S262144x8_S262144x8x1 (ix3 b c m)
      = x (ix2 b (Cert.Spec.col0 c m)) := by
  refine (shapeCast_apply _ _ (ix3 b c m) (ix2 b (⟨1 * c.val + m.val, by omega⟩ : Fin 8)) ?_).trans ?_
  · rw [Shape.rowMajor_val_two, Shape.rowMajor_val_three]
    show b.val * 8 + (1 * c.val + m.val) = (b.val * 8 + c.val) * 1 + m.val
    omega
  · exact slice2_axis1_apply 0 x _ b _ (Cert.Spec.col0 c m) (by
      show c.val + m.val = 0 + (1 * c.val + m.val)
      omega)

/-- The accumulated products at (b, c, r): from zero, the three blocks against row r of the three tables. -/
theorem acc_apply (x : FVec Ideal S262144x200 .f32) (V4 : FVec Ideal S15x9 .f32) (V2 : FVec Ideal S15x5 .f32)
    (V0 : FVec Ideal S15x1 .f32) (b : Fin 262144) (c : Fin 8) (r : Fin 15) :
    acc x V4 V2 V0 (ix3 b c r)
      = ((0 + ∑ m : Fin 9, x (ix2 b (Cert.Spec.col4 c m)) * V4 (ix2 r m))
          + ∑ m : Fin 5, x (ix2 b (Cert.Spec.col2 c m)) * V2 (ix2 r m))
        + ∑ m : Fin 1, x (ix2 b (Cert.Spec.col0 c m)) * V0 (ix2 r m) := by
  have h4 : Host.dotGeneral dot_S262144x8x9_S15x9_S262144x8x15_2_1_01_0_n_n none
      (shapeCast S262144x8x9 (extractStridedSlice S262144x72 ![0, 128] x slices_S262144x200_S262144x72_0_128)
        shapeCasts_S262144x72_S262144x8x9) V4 (ix3 b c r)
      = ∑ m : Fin 9, x (ix2 b (Cert.Spec.col4 c m)) * V4 (ix2 r m) := by
    refine (dot_rows_apply _ none _ V4 b c r).trans (Finset.sum_congr rfl fun m _ => ?_)
    rw [block4_apply]
  have h2 : Host.dotGeneral dot_S262144x8x5_S15x5_S262144x8x15_2_1_01_0_n_n none
      (shapeCast S262144x8x5 (extractStridedSlice S262144x40 ![0, 32] x slices_S262144x200_S262144x40_0_32)
        shapeCasts_S262144x40_S262144x8x5) V2 (ix3 b c r)
      = ∑ m : Fin 5, x (ix2 b (Cert.Spec.col2 c m)) * V2 (ix2 r m) := by
    refine (dot_rows_apply _ none _ V2 b c r).trans (Finset.sum_congr rfl fun m _ => ?_)
    rw [block2_apply]
  have h0 : Host.dotGeneral dot_S262144x8x1_S15x1_S262144x8x15_2_1_01_0_n_n none
      (shapeCast S262144x8x1 (extractStridedSlice S262144x8 ![0, 0] x slices_S262144x200_S262144x8_0_0)
        shapeCasts_S262144x8_S262144x8x1) V0 (ix3 b c r)
      = ∑ m : Fin 1, x (ix2 b (Cert.Spec.col0 c m)) * V0 (ix2 r m) := by
    refine (dot_rows_apply _ none _ V0 b c r).trans (Finset.sum_congr rfl fun m _ => ?_)
    rw [block0_apply]
  unfold acc
  simp only [addf_apply]
  rw [h4, h2, h0, broadcastInDim_scalar_apply, constant_apply, Ideal.ofBits_zero_f32]

/-- A position of the one-axis tables is its coordinate. -/
theorem rowMajor_ix1 (j : Fin 81) : S81.rowMajor (ix1 j) = j :=
  Fin.ext (Shape.rowMajor_val_one (ix1 j))

/-- No entry of the first table is negative and all lie in 0 … 14: wrapped and clamped, entry j is still dm j. -/
theorem row_clamped : ∀ j : Fin 81,
    min (Scalar.select (IntOp.cmpi .slt (lit0 j) 0#32) (IntOp.addi (lit0 j) 15#32) (lit0 j)).toInt.toNat (15 - 1)
      = (lit0 j).toNat % 15 := by
  decide

/-- The table of rows at j. -/
theorem rows_apply (j : Fin 81) :
    rows (ix1 j) = Scalar.select (IntOp.cmpi .slt (lit0 j) 0#32) (IntOp.addi (lit0 j) 15#32) (lit0 j) := by
  show Scalar.select (IntOp.cmpi .slt (lit0 (S81.rowMajor (ix1 j))) 0#32)
      (IntOp.addi (lit0 (S81.rowMajor (ix1 j))) 15#32) (lit0 (S81.rowMajor (ix1 j))) = _
  rw [rowMajor_ix1]

/-- The divisors, broadcast over rows and channels, at (b, c, j). -/
theorem divs_apply (b : Fin 262144) (c : Fin 8) (j : Fin 81) :
    broadcastInDim S262144x8x81 ![0, 1, 2] bcast_S1x1x81_S262144x8x81_0_1_2
      (broadcastInDim S1x1x81 ![2] bcast_S81_S1x1x81_2 divs) (ix3 b c j) = cf j := by
  refine (broadcastInDim_apply _ _ _ (ix3 b c j) (ix3 (0 : Fin 1) (0 : Fin 1) j) (fun a => ?_)).trans ?_
  · match a with
    | ⟨0, _⟩ => rfl
    | ⟨1, _⟩ => rfl
    | ⟨2, _⟩ => rfl
  refine (broadcastInDim_apply _ _ _ (ix3 (0 : Fin 1) (0 : Fin 1) j) (ix1 j) (fun a => ?_)).trans ?_
  · match a with
    | ⟨0, _⟩ => rfl
  show Ideal.ofBits .f32 (lit1 (S81.rowMajor (ix1 j))) = _
  rw [rowMajor_ix1]
  rfl

/-- The start indices, as a column, at (j, 0). -/
theorem rowsCol_apply (j : Fin 81) :
    broadcastInDim S81x1 ![0] bcast_S81_S81x1_0 rows (ix2 j (0 : Fin 1)) = rows (ix1 j) :=
  broadcastInDim_apply _ _ _ (ix2 j (0 : Fin 1)) (ix1 j) (fun a => by
    match a with
    | ⟨0, _⟩ => rfl)

/-- THE RESULT BEFORE ITS LAST CHANGE OF SHAPE, AT AN INDEX. -/
theorem R3_apply (x : FVec Ideal S262144x200 .f32) (V4 : FVec Ideal S15x9 .f32) (V2 : FVec Ideal S15x5 .f32)
    (V0 : FVec Ideal S15x1 .f32) (b : Fin 262144) (c : Fin 8) (j : Fin 81) :
    R3 x V4 V2 V0 (ix3 b c j) = Cert.Spec.refVal dm cf x V4 V2 V0 b c j := by
  have hg : Host.gather gather_S262144x8x15_S81x1_S262144x8x81_01_2_n_n_2_1_26214481 (acc x V4 V2 V0)
      (broadcastInDim S81x1 ![0] bcast_S81_S81x1_0 rows) (ix3 b c j) = acc x V4 V2 V0 (ix3 b c (dm j)) := by
    refine (gather_last_apply (by decide) _ (acc x V4 V2 V0) _ b c j).trans ?_
    congr 2
    refine Fin.ext ?_
    show min (broadcastInDim S81x1 ![0] bcast_S81_S81x1_0 rows (ix2 j (0 : Fin 1))).toInt.toNat (15 - 1) = (lit0 j).toNat % 15
    rw [rowsCol_apply, rows_apply]
    exact row_clamped j
  unfold R3
  rw [hostDivf_apply, hg, divs_apply, acc_apply]
  rfl

end Cert.ReferenceIdeal.RefValue

end
-- ==== Proof.FinalBridge.lean ====
/-
  The two results are one array.

  The kernel's result is the 262144×648 array "row b of x against column n of the matrix", recast to
  262144×8×3×3×3×3; the reference's is the 262144×8×81 array of the specification's entries, recast to the same shape.
  Column n = 81c + j of the first is entry (c, j) of the second at the same row-major position, and there the two
  hold the same number: the matrix is the specification's matrix (entry by entry), a row of x against its column
  81c + j is the specification's entry (b, c, j), and that is what the reference computes. Both programs carry the
  same two tables (the monomial of a position, its multiplicity), whose multiplicities are 1, 4, 6 or 12.
-/
import proofs.«176551_j26628797235368_2_alg».proof.Proof.KernelRun
import proofs.«176551_j26628797235368_2_alg».proof.Proof.KernelW
import proofs.«176551_j26628797235368_2_alg».proof.Proof.EntryBridge
import proofs.«176551_j26628797235368_2_alg».proof.Proof.CoefFacts
import proofs.«176551_j26628797235368_2_alg».proof.Proof.LibFlat
import proofs.«176551_j26628797235368_2_alg».proof.Proof.Tables
import proofs.«176551_j26628797235368_2_alg».proof.Proof.RefRun
import proofs.«176551_j26628797235368_2_alg».proof.Proof.RefRead

set_option maxRecDepth 16384

noncomputable section

namespace Cert.Bridge

open Idealize.ShloMosaic Idealize.ShloMosaic.TcCoe Idealize.SL.Sem Idealize.ShloMosaic.ValueIdx
open Cert.KernelIdeal.RegionValue (rowsByCols)

/-- The two programs read the same monomial for a position, -/
theorem dm_eq : Cert.KernelIdeal.WValue.dm = Cert.ReferenceIdeal.RefValue.dm := by
  funext j
  apply Fin.ext
  show (Cert.KernelIdeal.lit0 j).toNat % 15 = (Cert.ReferenceIdeal.lit0 j).toNat % 15
  rw [Cert.Tables.lit0_eq]

/-- and the same multiplicity. -/
theorem cf_eq : Cert.KernelIdeal.WValue.cf = Cert.ReferenceIdeal.RefValue.cf := by
  funext j
  show Ideal.ofBits .f32 (Cert.KernelIdeal.lit1 j) = Ideal.ofBits .f32 (Cert.ReferenceIdeal.lit1 j)
  rw [Cert.Tables.lit1_eq]

/-- A multiplicity is a positive real: off zero, its inverse nonnegative and finite. -/
theorem cf_facts (j : Fin 81) : Cert.KernelIdeal.WValue.cf j ≠ 0 ∧ 0 ≤ (Cert.KernelIdeal.WValue.cf j)⁻¹
    ∧ (Cert.KernelIdeal.WValue.cf j)⁻¹ ≠ ⊤ :=
  Cert.Spec.ofBits_mult _ (Cert.Tables.lit1_mult j)

/-- THE TWO RESULT ARRAYS ARE EQUAL, for any launch memory of the kernel's program. -/
theorem result_eq (m : (ℓ : Loc Cert.KernelIdeal.nD Cert.KernelIdeal.τ Cert.KernelIdeal.sig) → Buf (Elt Ideal) ℓ)
    (c : Dev Cert.KernelIdeal.nD) :
    shapeCast Cert.KernelIdeal.S262144x8x3x3x3x3
        (rowsByCols (m ((c.tc : Thread Cert.KernelIdeal.nD Cert.KernelIdeal.τ).loc Cert.KernelIdeal.main_arg0))
          (Cert.KernelIdeal.Gen.V m c Cert.KernelIdeal.main_v129))
        Cert.KernelIdeal.Facts₀.shapeCasts_S262144x648_S262144x8x3x3x3x3
      = shapeCast Cert.ReferenceIdeal.S262144x8x3x3x3x3
        (Cert.ReferenceIdeal.RefValue.R3
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)))
        Cert.ReferenceIdeal.Facts₀.shapeCasts_S262144x8x81_S262144x8x3x3x3x3 :=
  Cert.LibFlat.shapeCast_matrix_cube _ _ _ _ fun b ch j =>
    (entry_eq Cert.KernelIdeal.WValue.dm Cert.KernelIdeal.WValue.cf cf_facts _ _ _ _ _
        (fun k n => Cert.KernelIdeal.WValue.W_apply m c k n) b ch j).trans
      (by rw [dm_eq, cf_eq]; exact (Cert.ReferenceIdeal.RefValue.R3_apply _ _ _ _ b ch j).symm)

end Cert.Bridge

end
-- ==== Proof.lean ====
/-
  The certificate's five claims.

  The three frames: the two kernel programs' are the generated frame certificates; the reference's is its run with
  the result dropped. The idealization rewrote nothing, so `preserves` has nothing to state. The equivalence: on the
  extended reals the kernel's result is x's rows against the columns of a 200×648 matrix assembled from the three
  weight arrays (each entry already divided by its position's multiplicity), recast to 262144×8×3×3×3×3; the
  reference's is the three blocks' products summed and then divided, gathered by position and recast to the same
  shape. Division by a positive real distributes over every sum of extended reals, so the two are one array
  (Proof/FinalBridge.lean); the finiteness of the inputs is never used.
-/
import proofs.«176551_j26628797235368_2_alg».proof.Defs
import proofs.«176551_j26628797235368_2_alg».proof.Proof.Gen.Kernel
import proofs.«176551_j26628797235368_2_alg».proof.Proof.Gen.Kernel.Frame
import proofs.«176551_j26628797235368_2_alg».proof.Proof.Gen.KernelIdeal
import proofs.«176551_j26628797235368_2_alg».proof.Proof.Gen.KernelIdeal.Frame
import proofs.«176551_j26628797235368_2_alg».proof.Proof.Gen.ReferenceIdeal
import proofs.«176551_j26628797235368_2_alg».proof.Proof.Gen.Pre_finite_inputs
import proofs.«176551_j26628797235368_2_alg».proof.Proof.KernelRun
import proofs.«176551_j26628797235368_2_alg».proof.Proof.RefRun
import proofs.«176551_j26628797235368_2_alg».proof.Proof.FinalBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments; the frame forgets the result. -/
theorem frame_ri : Cert.frame_ReferenceIdeal := fun m ρ _ =>
  (θ_run Cert.ReferenceIdeal.defs _ _).mono (fun _ h c => (h c).2) (Cert.ReferenceIdeal.RefValue.run m ρ)

/-- Both runs end, from memories that agree on the arguments, with the same result array. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
